-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x30x7x7 : Shape := ⟨4, ![32768, 30, 7, 7]⟩
abbrev S_ : Shape := ⟨0, ![]⟩

class Facts : Prop where
  bcast_S_S32768x30x7x7 : S_.BroadcastsInDim S32768x30x7x7 (![] : Fin 0 → Fin S32768x30x7x7.rank)
  reducesTo_S32768x30x7x7_S_d0_1_2_3 : S32768x30x7x7.ReducesTo [0, 1, 2, 3] S_
  h_S_ : 0 < S_.numel

variable [Facts]

def fn {F : FTy → Type} [FloatOps F] (main_arg0 : FVec F S32768x30x7x7 .f32) (main_arg1 : FVec F S32768x30x7x7 .f32) : IVec S_ 1 :=
  let main_v0 : FVec F S32768x30x7x7 .f32 := Host.absf main_arg0
  let main_cst : FVec F S_ .f32 := constant S_ .f32 0x7F800000#32
  let main_v1 : FVec F S32768x30x7x7 .f32 := broadcastInDim S32768x30x7x7 ![] bcast_S_S32768x30x7x7 main_cst
  let main_v2 : IVec S32768x30x7x7 1 := cmpf .olt main_v0 main_v1
  let main_c : IVec S_ 1 := constantI S_ 1 1#1
  let main_v3 : IVec S_ 1 := (fun x v => Host.reduce IntOp.andi x v reducesTo_S32768x30x7x7_S_d0_1_2_3 h_S_) main_v2 main_c
  let main_v4 : FVec F S32768x30x7x7 .f32 := Host.absf main_arg1
  let main_cst_0 : FVec F S_ .f32 := constant S_ .f32 0x7F800000#32
  let main_v5 : FVec F S32768x30x7x7 .f32 := broadcastInDim S32768x30x7x7 ![] bcast_S_S32768x30x7x7 main_cst_0
  let main_v6 : IVec S32768x30x7x7 1 := cmpf .olt main_v4 main_v5
  let main_c_1 : IVec S_ 1 := constantI S_ 1 1#1
  let main_v7 : IVec S_ 1 := (fun x v => Host.reduce IntOp.andi x v reducesTo_S32768x30x7x7_S_d0_1_2_3 h_S_) main_v6 main_c_1
  let main_v8 : IVec S_ 1 := andi main_v3 main_v7
  main_v8
-- ==== Kernel.lean ====
abbrev S32768x30x7x7 : Shape := ⟨4, ![32768, 30, 7, 7]⟩
abbrev S1x1 : Shape := ⟨2, ![1, 1]⟩
abbrev S32x30x7x7 : Shape := ⟨4, ![32, 30, 7, 7]⟩
abbrev S32x4x7x7 : Shape := ⟨4, ![32, 4, 7, 7]⟩
abbrev S32x1x7x7 : Shape := ⟨4, ![32, 1, 7, 7]⟩
abbrev S32x7x7 : Shape := ⟨3, ![32, 7, 7]⟩
abbrev S32x7 : Shape := ⟨2, ![32, 7]⟩
abbrev S32 : Shape := ⟨1, ![32]⟩
abbrev S32x1 : Shape := ⟨2, ![32, 1]⟩
abbrev S1 : Shape := ⟨1, ![1]⟩
abbrev S32x20x7x7 : Shape := ⟨4, ![32, 20, 7, 7]⟩
abbrev S32x20x7 : Shape := ⟨3, ![32, 20, 7]⟩
abbrev S32x20 : Shape := ⟨2, ![32, 20]⟩
abbrev S32x20x1 : Shape := ⟨3, ![32, 20, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32768x30x7x7, .f32⟩
  | .hbm, ⟨1, _⟩ => ⟨S32768x30x7x7, .f32⟩
  | .hbm, ⟨2, _⟩ => ⟨S1x1, .f32⟩
  | .hbm, ⟨3, _⟩ => ⟨S_, .f32⟩
  | .local _ .vmem, ⟨0, _⟩ => ⟨S32x30x7x7, .f32⟩
  | .local _ .vmem, ⟨1, _⟩ => ⟨S32x30x7x7, .f32⟩
  | .local _ .vmem, ⟨2, _⟩ => ⟨S32x30x7x7, .f32⟩
  | .local _ .vmem, ⟨3, _⟩ => ⟨S32x30x7x7, .f32⟩
  | .local _ .vmem, ⟨4, _⟩ => ⟨S1x1, .f32⟩
  | _, _ => ⟨S32768x30x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x30x7x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x30x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S32x30x7x7_S32x30x7x7_0_0_0_0 : ∀ a, (![0, 0, 0, 0] : Fin 4 → Nat) a + S32x30x7x7.size a ≤ S32x30x7x7.size a
  h_S32x30x7x7 : 0 < S32x30x7x7.numel
  slices_S32x30x7x7_o0_0_0_0_S32x4x7x7 : S32x30x7x7.Slices ![0, 0, 0, 0] S32x4x7x7
  slices_S32x30x7x7_o0_5_0_0_S32x4x7x7 : S32x30x7x7.Slices ![0, 5, 0, 0] S32x4x7x7
  slices_S32x4x7x7_o0_0_0_0_S32x1x7x7 : S32x4x7x7.Slices ![0, 0, 0, 0] S32x1x7x7
  shapeCasts_S32x1x7x7_S32x7x7 : S32x1x7x7.ShapeCasts S32x7x7
  slices_S32x4x7x7_o0_1_0_0_S32x1x7x7 : S32x4x7x7.Slices ![0, 1, 0, 0] S32x1x7x7
  slices_S32x4x7x7_o0_2_0_0_S32x1x7x7 : S32x4x7x7.Slices ![0, 2, 0, 0] S32x1x7x7
  slices_S32x4x7x7_o0_3_0_0_S32x1x7x7 : S32x4x7x7.Slices ![0, 3, 0, 0] S32x1x7x7
  slices_S32x30x7x7_o0_4_0_0_S32x1x7x7 : S32x30x7x7.Slices ![0, 4, 0, 0] S32x1x7x7
  slices_S32x30x7x7_o0_0_0_0_S32x1x7x7 : S32x30x7x7.Slices ![0, 0, 0, 0] S32x1x7x7
  slices_S32x30x7x7_o0_1_0_0_S32x1x7x7 : S32x30x7x7.Slices ![0, 1, 0, 0] S32x1x7x7
  slices_S32x30x7x7_o0_5_0_0_S32x1x7x7 : S32x30x7x7.Slices ![0, 5, 0, 0] S32x1x7x7
  slices_S32x30x7x7_o0_6_0_0_S32x1x7x7 : S32x30x7x7.Slices ![0, 6, 0, 0] S32x1x7x7
  slices_S32x30x7x7_o0_2_0_0_S32x1x7x7 : S32x30x7x7.Slices ![0, 2, 0, 0] S32x1x7x7
  slices_S32x30x7x7_o0_3_0_0_S32x1x7x7 : S32x30x7x7.Slices ![0, 3, 0, 0] S32x1x7x7
  slices_S32x30x7x7_o0_7_0_0_S32x1x7x7 : S32x30x7x7.Slices ![0, 7, 0, 0] S32x1x7x7
  slices_S32x30x7x7_o0_8_0_0_S32x1x7x7 : S32x30x7x7.Slices ![0, 8, 0, 0] S32x1x7x7
  slices_S32x30x7x7_o0_9_0_0_S32x1x7x7 : S32x30x7x7.Slices ![0, 9, 0, 0] S32x1x7x7
  reduces_S32x7x7_S32x7 : S32x7x7.Reduces [2] S32x7
  reduces_S32x7_S32 : S32x7.Reduces [1] S32
  shapeCasts_S32_S32x1 : S32.ShapeCasts S32x1
  reduces_S32x1_S1 : S32x1.Reduces [0] S1
  shapeCasts_S1_S1x1 : S1.ShapeCasts S1x1
  slices_S32x30x7x7_o0_10_0_0_S32x20x7x7 : S32x30x7x7.Slices ![0, 10, 0, 0] S32x20x7x7
  reduces_S32x20x7x7_S32x20x7 : S32x20x7x7.Reduces [3] S32x20x7
  reduces_S32x20x7_S32x20 : S32x20x7.Reduces [2] S32x20
  shapeCasts_S32x20_S32x20x1 : S32x20.ShapeCasts S32x20x1
  reduces_S32x20x1_S32x1 : S32x20x1.Reduces [1] S32x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x30x7x7.size a ≤ S32768x30x7x7.size a
  hwx0_0 : ∀ i : grid0.Coords, EltTy.bits .f32 = 32 ∨ (Rect.block (s := S32768x30x7x7) S32x30x7x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x30x7x7.size a ≤ S32768x30x7x7.size a
  hwx0_1 : ∀ i : grid0.Coords, EltTy.bits .f32 = 32 ∨ (Rect.block (s := S32768x30x7x7) S32x30x7x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x30x7x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x30x7x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x30x7x7 : Shape := ⟨4, ![32768, 30, 7, 7]⟩
abbrev S32768x1x7x7 : Shape := ⟨4, ![32768, 1, 7, 7]⟩
abbrev S32768x7x7 : Shape := ⟨3, ![32768, 7, 7]⟩
abbrev S_ : Shape := ⟨0, ![]⟩
abbrev S32768x4x7x7 : Shape := ⟨4, ![32768, 4, 7, 7]⟩
abbrev S32768x20x7x7 : Shape := ⟨4, ![32768, 20, 7, 7]⟩

abbrev nBuf : Space → Nat
  | .hbm => 261
  | .vmem => 0
  | .smem => 0
  | _ => 0

abbrev hbmTy0_0 (i : Nat) : BufTy := match i % 128 with
  | 0 => ⟨S32768x30x7x7, .f32⟩
  | 1 => ⟨S32768x30x7x7, .f32⟩
  | 2 => ⟨S32768x1x7x7, .f32⟩
  | 3 => ⟨S32768x7x7, .f32⟩
  | 4 => ⟨S_, .f32⟩
  | 5 => ⟨S32768x7x7, .f32⟩
  | 6 => ⟨S32768x7x7, .i1⟩
  | 7 => ⟨S32768x4x7x7, .f32⟩
  | 8 => ⟨S32768x4x7x7, .f32⟩
  | 9 => ⟨S32768x1x7x7, .f32⟩
  | 10 => ⟨S32768x7x7, .f32⟩
  | 11 => ⟨S32768x1x7x7, .f32⟩
  | 12 => ⟨S32768x7x7, .f32⟩
  | 13 => ⟨S32768x7x7, .f32⟩
  | 14 => ⟨S32768x1x7x7, .f32⟩
  | 15 => ⟨S32768x7x7, .f32⟩
  | 16 => ⟨S32768x1x7x7, .f32⟩
  | 17 => ⟨S32768x7x7, .f32⟩
  | 18 => ⟨S32768x7x7, .f32⟩
  | 19 => ⟨S32768x1x7x7, .f32⟩
  | 20 => ⟨S32768x7x7, .f32⟩
  | 21 => ⟨S32768x1x7x7, .f32⟩
  | 22 => ⟨S32768x7x7, .f32⟩
  | 23 => ⟨S32768x7x7, .f32⟩
  | 24 => ⟨S32768x1x7x7, .f32⟩
  | 25 => ⟨S32768x7x7, .f32⟩
  | 26 => ⟨S32768x1x7x7, .f32⟩
  | 27 => ⟨S32768x7x7, .f32⟩
  | 28 => ⟨S32768x7x7, .f32⟩
  | 29 => ⟨S32768x7x7, .f32⟩
  | 30 => ⟨S_, .f32⟩
  | 31 => ⟨S32768x7x7, .f32⟩
  | 32 => ⟨S32768x7x7, .f32⟩
  | 33 => ⟨S_, .f32⟩
  | 34 => ⟨S32768x7x7, .f32⟩
  | 35 => ⟨S32768x7x7, .f32⟩
  | 36 => ⟨S32768x7x7, .f32⟩
  | 37 => ⟨S_, .f32⟩
  | 38 => ⟨S32768x7x7, .f32⟩
  | 39 => ⟨S32768x7x7, .f32⟩
  | 40 => ⟨S_, .f32⟩
  | 41 => ⟨S32768x7x7, .f32⟩
  | 42 => ⟨S32768x7x7, .f32⟩
  | 43 => ⟨S32768x7x7, .f32⟩
  | 44 => ⟨S32768x1x7x7, .f32⟩
  | 45 => ⟨S32768x7x7, .f32⟩
  | 46 => ⟨S32768x1x7x7, .f32⟩
  | 47 => ⟨S32768x7x7, .f32⟩
  | 48 => ⟨S32768x7x7, .f32⟩
  | 49 => ⟨S_, .f32⟩
  | 50 => ⟨S32768x7x7, .f32⟩
  | 51 => ⟨S32768x7x7, .f32⟩
  | 52 => ⟨S32768x1x7x7, .f32⟩
  | 53 => ⟨S32768x7x7, .f32⟩
  | 54 => ⟨S32768x1x7x7, .f32⟩
  | 55 => ⟨S32768x7x7, .f32⟩
  | 56 => ⟨S32768x7x7, .f32⟩
  | 57 => ⟨S_, .f32⟩
  | 58 => ⟨S32768x7x7, .f32⟩
  | 59 => ⟨S32768x7x7, .f32⟩
  | 60 => ⟨S32768x7x7, .f32⟩
  | 61 => ⟨S32768x1x7x7, .f32⟩
  | 62 => ⟨S32768x7x7, .f32⟩
  | 63 => ⟨S32768x1x7x7, .f32⟩
  | 64 => ⟨S32768x7x7, .f32⟩
  | 65 => ⟨S32768x7x7, .f32⟩
  | 66 => ⟨S_, .f32⟩
  | 67 => ⟨S32768x7x7, .f32⟩
  | 68 => ⟨S32768x7x7, .f32⟩
  | 69 => ⟨S32768x1x7x7, .f32⟩
  | 70 => ⟨S32768x7x7, .f32⟩
  | 71 => ⟨S32768x1x7x7, .f32⟩
  | 72 => ⟨S32768x7x7, .f32⟩
  | 73 => ⟨S32768x7x7, .f32⟩
  | 74 => ⟨S_, .f32⟩
  | 75 => ⟨S32768x7x7, .f32⟩
  | 76 => ⟨S32768x7x7, .f32⟩
  | 77 => ⟨S32768x7x7, .f32⟩
  | 78 => ⟨S32768x7x7, .f32⟩
  | 79 => ⟨S32768x7x7, .f32⟩
  | 80 => ⟨S32768x7x7, .f32⟩
  | 81 => ⟨S32768x4x7x7, .f32⟩
  | 82 => ⟨S32768x4x7x7, .f32⟩
  | 83 => ⟨S32768x1x7x7, .f32⟩
  | 84 => ⟨S32768x7x7, .f32⟩
  | 85 => ⟨S32768x1x7x7, .f32⟩
  | 86 => ⟨S32768x7x7, .f32⟩
  | 87 => ⟨S32768x7x7, .f32⟩
  | 88 => ⟨S32768x1x7x7, .f32⟩
  | 89 => ⟨S32768x7x7, .f32⟩
  | 90 => ⟨S32768x1x7x7, .f32⟩
  | 91 => ⟨S32768x7x7, .f32⟩
  | 92 => ⟨S32768x7x7, .f32⟩
  | 93 => ⟨S32768x1x7x7, .f32⟩
  | 94 => ⟨S32768x7x7, .f32⟩
  | 95 => ⟨S32768x1x7x7, .f32⟩
  | 96 => ⟨S32768x7x7, .f32⟩
  | 97 => ⟨S32768x7x7, .f32⟩
  | 98 => ⟨S32768x1x7x7, .f32⟩
  | 99 => ⟨S32768x7x7, .f32⟩
  | 100 => ⟨S32768x1x7x7, .f32⟩
  | 101 => ⟨S32768x7x7, .f32⟩
  | 102 => ⟨S32768x7x7, .f32⟩
  | 103 => ⟨S32768x7x7, .f32⟩
  | 104 => ⟨S_, .f32⟩
  | 105 => ⟨S32768x7x7, .f32⟩
  | 106 => ⟨S32768x7x7, .f32⟩
  | 107 => ⟨S_, .f32⟩
  | 108 => ⟨S32768x7x7, .f32⟩
  | 109 => ⟨S32768x7x7, .f32⟩
  | 110 => ⟨S32768x7x7, .f32⟩
  | 111 => ⟨S_, .f32⟩
  | 112 => ⟨S32768x7x7, .f32⟩
  | 113 => ⟨S32768x7x7, .f32⟩
  | 114 => ⟨S_, .f32⟩
  | 115 => ⟨S32768x7x7, .f32⟩
  | 116 => ⟨S32768x7x7, .f32⟩
  | 117 => ⟨S32768x7x7, .f32⟩
  | 118 => ⟨S32768x1x7x7, .f32⟩
  | 119 => ⟨S32768x7x7, .f32⟩
  | 120 => ⟨S32768x1x7x7, .f32⟩
  | 121 => ⟨S32768x7x7, .f32⟩
  | 122 => ⟨S32768x7x7, .f32⟩
  | 123 => ⟨S_, .f32⟩
  | 124 => ⟨S32768x7x7, .f32⟩
  | 125 => ⟨S32768x7x7, .f32⟩
  | 126 => ⟨S32768x1x7x7, .f32⟩
  | 127 => ⟨S32768x7x7, .f32⟩
  | _ => ⟨S32768x30x7x7, .f32⟩

abbrev hbmTy0_1 (i : Nat) : BufTy := match i % 128 with
  | 0 => ⟨S32768x1x7x7, .f32⟩
  | 1 => ⟨S32768x7x7, .f32⟩
  | 2 => ⟨S32768x7x7, .f32⟩
  | 3 => ⟨S_, .f32⟩
  | 4 => ⟨S32768x7x7, .f32⟩
  | 5 => ⟨S32768x7x7, .f32⟩
  | 6 => ⟨S32768x7x7, .f32⟩
  | 7 => ⟨S32768x1x7x7, .f32⟩
  | 8 => ⟨S32768x7x7, .f32⟩
  | 9 => ⟨S32768x1x7x7, .f32⟩
  | 10 => ⟨S32768x7x7, .f32⟩
  | 11 => ⟨S32768x7x7, .f32⟩
  | 12 => ⟨S_, .f32⟩
  | 13 => ⟨S32768x7x7, .f32⟩
  | 14 => ⟨S32768x7x7, .f32⟩
  | 15 => ⟨S32768x1x7x7, .f32⟩
  | 16 => ⟨S32768x7x7, .f32⟩
  | 17 => ⟨S32768x1x7x7, .f32⟩
  | 18 => ⟨S32768x7x7, .f32⟩
  | 19 => ⟨S32768x7x7, .f32⟩
  | 20 => ⟨S_, .f32⟩
  | 21 => ⟨S32768x7x7, .f32⟩
  | 22 => ⟨S32768x7x7, .f32⟩
  | 23 => ⟨S32768x7x7, .f32⟩
  | 24 => ⟨S32768x7x7, .f32⟩
  | 25 => ⟨S32768x7x7, .f32⟩
  | 26 => ⟨S32768x7x7, .f32⟩
  | 27 => ⟨S32768x7x7, .i1⟩
  | 28 => ⟨S32768x1x7x7, .f32⟩
  | 29 => ⟨S32768x7x7, .f32⟩
  | 30 => ⟨S32768x1x7x7, .f32⟩
  | 31 => ⟨S32768x7x7, .f32⟩
  | 32 => ⟨S32768x7x7, .f32⟩
  | 33 => ⟨S32768x7x7, .f32⟩
  | 34 => ⟨S32768x1x7x7, .f32⟩
  | 35 => ⟨S32768x7x7, .f32⟩
  | 36 => ⟨S32768x1x7x7, .f32⟩
  | 37 => ⟨S32768x7x7, .f32⟩
  | 38 => ⟨S32768x7x7, .f32⟩
  | 39 => ⟨S32768x7x7, .f32⟩
  | 40 => ⟨S32768x7x7, .f32⟩
  | 41 => ⟨S_, .f32⟩
  | 42 => ⟨S32768x7x7, .f32⟩
  | 43 => ⟨S32768x7x7, .f32⟩
  | 44 => ⟨S32768x1x7x7, .f32⟩
  | 45 => ⟨S32768x7x7, .f32⟩
  | 46 => ⟨S32768x1x7x7, .f32⟩
  | 47 => ⟨S32768x7x7, .f32⟩
  | 48 => ⟨S32768x7x7, .f32⟩
  | 49 => ⟨S32768x7x7, .f32⟩
  | 50 => ⟨S32768x1x7x7, .f32⟩
  | 51 => ⟨S32768x7x7, .f32⟩
  | 52 => ⟨S32768x1x7x7, .f32⟩
  | 53 => ⟨S32768x7x7, .f32⟩
  | 54 => ⟨S32768x7x7, .f32⟩
  | 55 => ⟨S32768x7x7, .f32⟩
  | 56 => ⟨S32768x7x7, .f32⟩
  | 57 => ⟨S_, .f32⟩
  | 58 => ⟨S32768x7x7, .f32⟩
  | 59 => ⟨S32768x7x7, .f32⟩
  | 60 => ⟨S32768x1x7x7, .f32⟩
  | 61 => ⟨S32768x7x7, .f32⟩
  | 62 => ⟨S32768x7x7, .f32⟩
  | 63 => ⟨S32768x1x7x7, .f32⟩
  | 64 => ⟨S32768x7x7, .f32⟩
  | 65 => ⟨S32768x7x7, .f32⟩
  | 66 => ⟨S32768x7x7, .f32⟩
  | 67 => ⟨S32768x7x7, .f32⟩
  | 68 => ⟨S32768x1x7x7, .f32⟩
  | 69 => ⟨S32768x7x7, .f32⟩
  | 70 => ⟨S32768x7x7, .f32⟩
  | 71 => ⟨S32768x1x7x7, .f32⟩
  | 72 => ⟨S32768x7x7, .f32⟩
  | 73 => ⟨S32768x7x7, .f32⟩
  | 74 => ⟨S32768x7x7, .f32⟩
  | 75 => ⟨S32768x7x7, .f32⟩
  | 76 => ⟨S32768x7x7, .f32⟩
  | 77 => ⟨S_, .f32⟩
  | 78 => ⟨S32768x7x7, .f32⟩
  | 79 => ⟨S32768x7x7, .f32⟩
  | 80 => ⟨S32768x1x7x7, .f32⟩
  | 81 => ⟨S32768x7x7, .f32⟩
  | 82 => ⟨S32768x7x7, .f32⟩
  | 83 => ⟨S32768x1x7x7, .f32⟩
  | 84 => ⟨S32768x7x7, .f32⟩
  | 85 => ⟨S32768x7x7, .f32⟩
  | 86 => ⟨S32768x7x7, .f32⟩
  | 87 => ⟨S32768x7x7, .f32⟩
  | 88 => ⟨S32768x1x7x7, .f32⟩
  | 89 => ⟨S32768x7x7, .f32⟩
  | 90 => ⟨S32768x7x7, .f32⟩
  | 91 => ⟨S32768x1x7x7, .f32⟩
  | 92 => ⟨S32768x7x7, .f32⟩
  | 93 => ⟨S32768x7x7, .f32⟩
  | 94 => ⟨S32768x7x7, .f32⟩
  | 95 => ⟨S32768x7x7, .f32⟩
  | 96 => ⟨S32768x7x7, .f32⟩
  | 97 => ⟨S_, .f32⟩
  | 98 => ⟨S32768x7x7, .f32⟩
  | 99 => ⟨S32768x7x7, .f32⟩
  | 100 => ⟨S32768x1x7x7, .f32⟩
  | 101 => ⟨S32768x7x7, .f32⟩
  | 102 => ⟨S32768x7x7, .f32⟩
  | 103 => ⟨S32768x7x7, .f32⟩
  | 104 => ⟨S32768x7x7, .f32⟩
  | 105 => ⟨S_, .f32⟩
  | 106 => ⟨S32768x7x7, .f32⟩
  | 107 => ⟨S32768x7x7, .f32⟩
  | 108 => ⟨S32768x7x7, .f32⟩
  | 109 => ⟨S32768x7x7, .f32⟩
  | 110 => ⟨S32768x7x7, .f32⟩
  | 111 => ⟨S32768x7x7, .f32⟩
  | 112 => ⟨S32768x1x7x7, .f32⟩
  | 113 => ⟨S32768x7x7, .f32⟩
  | 114 => ⟨S32768x1x7x7, .f32⟩
  | 115 => ⟨S32768x7x7, .f32⟩
  | 116 => ⟨S32768x7x7, .f32⟩
  | 117 => ⟨S32768x7x7, .f32⟩
  | 118 => ⟨S_, .f32⟩
  | 119 => ⟨S32768x7x7, .f32⟩
  | 120 => ⟨S32768x7x7, .f32⟩
  | 121 => ⟨S32768x20x7x7, .f32⟩
  | 122 => ⟨S32768x20x7x7, .f32⟩
  | 123 => ⟨S32768x20x7x7, .f32⟩
  | 124 => ⟨S32768x20x7x7, .f32⟩
  | 125 => ⟨S_, .f32⟩
  | 126 => ⟨S_, .f32⟩
  | 127 => ⟨S32768x7x7, .f32⟩
  | _ => ⟨S32768x30x7x7, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S32768x30x7x7, .f32⟩

abbrev hbmTy (i : Nat) : BufTy := match i / 128 with
  | 0 => hbmTy0_0 i
  | 1 => hbmTy0_1 i
  | 2 => hbmTy0_2 i
  | _ => ⟨S32768x30x7x7, .f32⟩

abbrev bufTy : (tb : Table) → Fin (tcTables nBuf tb) → BufTy
  | .hbm, ⟨i, _⟩ => hbmTy i
  | _, _ => ⟨S32768x30x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_7 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_8 : Ref sig .tc := ⟨.hbm, 104, rfl⟩
abbrev main_v93 : Ref sig .tc := ⟨.hbm, 105, rfl⟩
abbrev main_v94 : Ref sig .tc := ⟨.hbm, 106, rfl⟩
abbrev main_cst_9 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_10 : Ref sig .tc := ⟨.hbm, 111, rfl⟩
abbrev main_v98 : Ref sig .tc := ⟨.hbm, 112, rfl⟩
abbrev main_v99 : Ref sig .tc := ⟨.hbm, 113, rfl⟩
abbrev main_cst_11 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_12 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_13 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_14 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_cst_15 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_cst_16 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_cst_17 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_cst_18 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_cst_19 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_cst_20 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_cst_21 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_cst_22 : Ref sig .tc := ⟨.hbm, 253, rfl⟩
abbrev main_v228 : Ref sig .tc := ⟨.hbm, 254, rfl⟩
abbrev main_v229 : Ref sig .tc := ⟨.hbm, 255, rfl⟩
abbrev main_cst_23 : Ref sig .tc := ⟨.hbm, 256, rfl⟩
abbrev main_v230 : Ref sig .tc := ⟨.hbm, 257, rfl⟩
abbrev main_v231 : Ref sig .tc := ⟨.hbm, 258, rfl⟩
abbrev main_cst_24 : Ref sig .tc := ⟨.hbm, 259, rfl⟩
abbrev main_v232 : Ref sig .tc := ⟨.hbm, 260, rfl⟩

abbrev nD : Nat := 1
abbrev τ : Topo := Topo.v7x

variable {F : FTy → Type} [FloatOps F]

class Facts₀ : Prop where
  slices_S32768x30x7x7_S32768x1x7x7_0_4_0_0 : S32768x30x7x7.Slices ![0, 4, 0, 0] S32768x1x7x7
  shapeCasts_S32768x1x7x7_S32768x7x7 : S32768x1x7x7.ShapeCasts S32768x7x7
  bcast_S_S32768x7x7 : S_.BroadcastsInDim S32768x7x7 (![] : Fin 0 → Fin S32768x7x7.rank)
  slices_S32768x30x7x7_S32768x4x7x7_0_0_0_0 : S32768x30x7x7.Slices ![0, 0, 0, 0] S32768x4x7x7
  slices_S32768x4x7x7_S32768x1x7x7_0_0_0_0 : S32768x4x7x7.Slices ![0, 0, 0, 0] S32768x1x7x7
  slices_S32768x4x7x7_S32768x1x7x7_0_1_0_0 : S32768x4x7x7.Slices ![0, 1, 0, 0] S32768x1x7x7
  slices_S32768x4x7x7_S32768x1x7x7_0_2_0_0 : S32768x4x7x7.Slices ![0, 2, 0, 0] S32768x1x7x7
  slices_S32768x4x7x7_S32768x1x7x7_0_3_0_0 : S32768x4x7x7.Slices ![0, 3, 0, 0] S32768x1x7x7
  slices_S32768x30x7x7_S32768x4x7x7_0_5_0_0 : S32768x30x7x7.Slices ![0, 5, 0, 0] S32768x4x7x7
  slices_S32768x30x7x7_S32768x1x7x7_0_0_0_0 : S32768x30x7x7.Slices ![0, 0, 0, 0] S32768x1x7x7
  slices_S32768x30x7x7_S32768x1x7x7_0_1_0_0 : S32768x30x7x7.Slices ![0, 1, 0, 0] S32768x1x7x7
  slices_S32768x30x7x7_S32768x1x7x7_0_5_0_0 : S32768x30x7x7.Slices ![0, 5, 0, 0] S32768x1x7x7
  slices_S32768x30x7x7_S32768x1x7x7_0_6_0_0 : S32768x30x7x7.Slices ![0, 6, 0, 0] S32768x1x7x7
  slices_S32768x30x7x7_S32768x1x7x7_0_2_0_0 : S32768x30x7x7.Slices ![0, 2, 0, 0] S32768x1x7x7
  slices_S32768x30x7x7_S32768x1x7x7_0_3_0_0 : S32768x30x7x7.Slices ![0, 3, 0, 0] S32768x1x7x7
  slices_S32768x30x7x7_S32768x1x7x7_0_7_0_0 : S32768x30x7x7.Slices ![0, 7, 0, 0] S32768x1x7x7
  slices_S32768x30x7x7_S32768x1x7x7_0_8_0_0 : S32768x30x7x7.Slices ![0, 8, 0, 0] S32768x1x7x7
  slices_S32768x30x7x7_S32768x1x7x7_0_9_0_0 : S32768x30x7x7.Slices ![0, 9, 0, 0] S32768x1x7x7
  slices_S32768x30x7x7_S32768x20x7x7_0_10_0_0 : S32768x30x7x7.Slices ![0, 10, 0, 0] S32768x20x7x7
  reducesTo_S32768x20x7x7_S_d0_1_2_3 : S32768x20x7x7.ReducesTo [0, 1, 2, 3] S_
  h_S_ : 0 < S_.numel
  reducesTo_S32768x7x7_S_d0_1_2 : S32768x7x7.ReducesTo [0, 1, 2] S_

variable [Facts₀]

class Facts : Prop extends Facts₀ where

variable [Facts]
-- ==== Proof.Cell.lean ====
/-
  The per-cell term of the detection loss as a function of one cell's thirty predicted and thirty
  labelled channels, on the extended reals; and the squared class difference of one channel.

  A cell carries two predicted boxes (channels 0–3 and 5–8, as corner coordinates x1 y1 x2 y2), their
  confidences (4 and 9) and twenty class scores (10–29); the label has the same layout, channel 4
  being the objectness indicator. The intersection-over-union of a predicted and a labelled box uses
  the "+1" pixel convention. The box with the larger overlap is the responsible one.
-/
import Idealize.ShloMosaic.PureOps.Ideal
import Idealize.ShloMosaic.Lib.ValueIdx

noncomputable section

namespace Cert.Loss

open Idealize.ShloMosaic

/-- The float words the two programs share, never evaluated: 1, 0, 5, 1/2 and the batch size 32768. -/
abbrev one : EReal := Ideal.ofBits .f32 0x3F800000#32
abbrev zero : EReal := Ideal.ofBits .f32 0x00000000#32
abbrev five : EReal := Ideal.ofBits .f32 0x40A00000#32
abbrev half : EReal := Ideal.ofBits .f32 0x3F000000#32
abbrev batch : EReal := Ideal.ofBits .f32 0x47000000#32

/-- The overlap area of the boxes (p0,p1,p2,p3) and (l0,l1,l2,l3): clipped width times clipped height. -/
def inter (p0 p1 p2 p3 l0 l1 l2 l3 : EReal) : EReal :=
  max (min p2 l2 - max p0 l0 + one) zero * max (min p3 l3 - max p1 l1 + one) zero

/-- Intersection over union: overlap / (area₁ + area₂ − overlap), with the ideal instance's quotient. -/
def iou (p0 p1 p2 p3 l0 l1 l2 l3 : EReal) : EReal :=
  Ideal.div (inter p0 p1 p2 p3 l0 l1 l2 l3)
    ((p2 - p0 + one) * (p3 - p1 + one) + (l2 - l0 + one) * (l3 - l1 + one) - inter p0 p1 p2 p3 l0 l1 l2 l3)

/-- The sum of two squared differences, (a − b)² + (c − d)². -/
def sq2 (a b c d : EReal) : EReal := (a - b) * (a - b) + (c - d) * (c - d)

/-- One cell's term: where the label marks an object, the coordinate and size losses of the responsible
    box plus half the squared confidence error against its overlap; elsewhere half the squared sum of
    the two confidences. -/
def cell (p l : Fin 30 → EReal) : EReal :=
  Scalar.select (FloatOps.cmpf (F := Ideal) (φ := .f32) .oeq (l 4) one)
    (Scalar.select
        (FloatOps.cmpf (F := Ideal) (φ := .f32) .oge (iou (p 0) (p 1) (p 2) (p 3) (l 0) (l 1) (l 2) (l 3))
          (iou (p 5) (p 6) (p 7) (p 8) (l 5) (l 6) (l 7) (l 8)))
        (five * sq2 (l 0) (p 0) (l 1) (p 1)
          + five * sq2 (Ideal.sqrt (p 2)) (Ideal.sqrt (l 2)) (Ideal.sqrt (p 3)) (Ideal.sqrt (l 3)))
        (five * sq2 (l 5) (p 5) (l 6) (p 6)
          + five * sq2 (Ideal.sqrt (p 7)) (Ideal.sqrt (l 7)) (Ideal.sqrt (p 8)) (Ideal.sqrt (l 8)))
      + half * ((p 9
          - Scalar.select
              (FloatOps.cmpf (F := Ideal) (φ := .f32) .oge (iou (p 0) (p 1) (p 2) (p 3) (l 0) (l 1) (l 2) (l 3))
                (iou (p 5) (p 6) (p 7) (p 8) (l 5) (l 6) (l 7) (l 8)))
              (iou (p 0) (p 1) (p 2) (p 3) (l 0) (l 1) (l 2) (l 3))
              (iou (p 5) (p 6) (p 7) (p 8) (l 5) (l 6) (l 7) (l 8)))
        * (p 9
          - Scalar.select
              (FloatOps.cmpf (F := Ideal) (φ := .f32) .oge (iou (p 0) (p 1) (p 2) (p 3) (l 0) (l 1) (l 2) (l 3))
                (iou (p 5) (p 6) (p 7) (p 8) (l 5) (l 6) (l 7) (l 8)))
              (iou (p 0) (p 1) (p 2) (p 3) (l 0) (l 1) (l 2) (l 3))
              (iou (p 5) (p 6) (p 7) (p 8) (l 5) (l 6) (l 7) (l 8)))))
    (half * ((p 4 + p 9) * (p 4 + p 9)))

/-- One class channel's squared difference. -/
def sqd (a b : EReal) : EReal := (a - b) * (a - b)

end Cert.Loss

end
-- ==== Proof.RefCell.lean ====
/-
  The reference program's per-cell value, read one operation at a time.

  Every layout operation of the reference program is a slice of the channel axis followed by the reshape that
  drops the unit channel axis, so the element of a reshaped array at batch b, row i, column j is the element of
  the prediction or label array at (b, k, i, j) for a literal channel k: the reshape's row-major coordinates
  ((b·7 + i)·7 + j) / 49, ((b·7 + i)·7 + j) / 7 % 7 and ((b·7 + i)·7 + j) % 7 are b, i and j because i, j < 7.
  With the layout operations read this way, the elementwise operations assemble, in the program's own order,
  the two intersection-over-union quotients and then the cell term of the specification; the class part is
  the squared difference of channel 10 + c of the two arrays.
-/
import proofs.«103485_j16303695855705_2_alg».proof.Proof.RefRead
import proofs.«103485_j16303695855705_2_alg».proof.Proof.Cell
import Idealize.ShloMosaic.Lib.ValueIdx

noncomputable section

namespace Cert.Loss.Ref

open Idealize.ShloMosaic Idealize.ShloMosaic.ValueIdx Cert.ReferenceIdeal Cert.ReferenceIdeal.Read

set_option hygiene false in
/-- Closes an equation between a composed layout index at batch b, row i, column j and the four-coordinate index
    with a literal channel: the channel coordinate computes, the other three are the row-major identities. -/
local macro "idx_tac" : tactic => `(tactic|
  (funext a
   match a with
   | ⟨0, _⟩ => exact Fin.ext (by show ((b.val * 7 + i.val) * 7 + j.val) / 49 = b.val; omega)
   | ⟨1, _⟩ => rfl
   | ⟨2, _⟩ => exact Fin.ext (by show ((b.val * 7 + i.val) * 7 + j.val) / 7 % 7 = i.val; omega)
   | ⟨3, _⟩ => exact Fin.ext (by show ((b.val * 7 + i.val) * 7 + j.val) % 7 = j.val; omega)))

/-! ## The reshaped channel slices at (b, i, j): one channel of the prediction or the label array -/

theorem at_v1 (x : (⟨S32768x30x7x7, .f32⟩ : BufTy).Contents (Elt Ideal)) (b : Fin 32768) (i j : Fin 7) :
    val_main_v1 (F := Ideal) x (ix3 b i j) = x (ix4 b (4 : Fin 30) i j) := by
  rw [val_main_v1_apply, val_main_v0_apply]
  exact congrArg x (by idx_tac)
theorem at_v17 (x : (⟨S32768x30x7x7, .f32⟩ : BufTy).Contents (Elt Ideal)) (b : Fin 32768) (i j : Fin 7) :
    val_main_v17 (F := Ideal) x (ix3 b i j) = x (ix4 b (2 : Fin 30) i j) := by
  rw [val_main_v17_apply, val_main_v16_apply, val_main_v4_apply]
  exact congrArg x (by idx_tac)
theorem at_v19 (x : (⟨S32768x30x7x7, .f32⟩ : BufTy).Contents (Elt Ideal)) (b : Fin 32768) (i j : Fin 7) :
    val_main_v19 (F := Ideal) x (ix3 b i j) = x (ix4 b (2 : Fin 30) i j) := by
  rw [val_main_v19_apply, val_main_v18_apply, val_main_v5_apply]
  exact congrArg x (by idx_tac)
theorem at_v7 (x : (⟨S32768x30x7x7, .f32⟩ : BufTy).Contents (Elt Ideal)) (b : Fin 32768) (i j : Fin 7) :
    val_main_v7 (F := Ideal) x (ix3 b i j) = x (ix4 b (0 : Fin 30) i j) := by
  rw [val_main_v7_apply, val_main_v6_apply, val_main_v4_apply]
  exact congrArg x (by idx_tac)
theorem at_v9 (x : (⟨S32768x30x7x7, .f32⟩ : BufTy).Contents (Elt Ideal)) (b : Fin 32768) (i j : Fin 7) :
    val_main_v9 (F := Ideal) x (ix3 b i j) = x (ix4 b (0 : Fin 30) i j) := by
  rw [val_main_v9_apply, val_main_v8_apply, val_main_v5_apply]
  exact congrArg x (by idx_tac)
theorem at_v22 (x : (⟨S32768x30x7x7, .f32⟩ : BufTy).Contents (Elt Ideal)) (b : Fin 32768) (i j : Fin 7) :
    val_main_v22 (F := Ideal) x (ix3 b i j) = x (ix4 b (3 : Fin 30) i j) := by
  rw [val_main_v22_apply, val_main_v21_apply, val_main_v4_apply]
  exact congrArg x (by idx_tac)
theorem at_v24 (x : (⟨S32768x30x7x7, .f32⟩ : BufTy).Contents (Elt Ideal)) (b : Fin 32768) (i j : Fin 7) :
    val_main_v24 (F := Ideal) x (ix3 b i j) = x (ix4 b (3 : Fin 30) i j) := by
  rw [val_main_v24_apply, val_main_v23_apply, val_main_v5_apply]
  exact congrArg x (by idx_tac)
theorem at_v12 (x : (⟨S32768x30x7x7, .f32⟩ : BufTy).Contents (Elt Ideal)) (b : Fin 32768) (i j : Fin 7) :
    val_main_v12 (F := Ideal) x (ix3 b i j) = x (ix4 b (1 : Fin 30) i j) := by
  rw [val_main_v12_apply, val_main_v11_apply, val_main_v4_apply]
  exact congrArg x (by idx_tac)
theorem at_v14 (x : (⟨S32768x30x7x7, .f32⟩ : BufTy).Contents (Elt Ideal)) (b : Fin 32768) (i j : Fin 7) :
    val_main_v14 (F := Ideal) x (ix3 b i j) = x (ix4 b (1 : Fin 30) i j) := by
  rw [val_main_v14_apply, val_main_v13_apply, val_main_v5_apply]
  exact congrArg x (by idx_tac)
theorem at_v38 (x : (⟨S32768x30x7x7, .f32⟩ : BufTy).Contents (Elt Ideal)) (b : Fin 32768) (i j : Fin 7) :
    val_main_v38 (F := Ideal) x (ix3 b i j) = x (ix4 b (2 : Fin 30) i j) := by
  rw [val_main_v38_apply, val_main_v37_apply, val_main_v4_apply]
  exact congrArg x (by idx_tac)
theorem at_v40 (x : (⟨S32768x30x7x7, .f32⟩ : BufTy).Contents (Elt Ideal)) (b : Fin 32768) (i j : Fin 7) :
    val_main_v40 (F := Ideal) x (ix3 b i j) = x (ix4 b (0 : Fin 30) i j) := by
  rw [val_main_v40_apply, val_main_v39_apply, val_main_v4_apply]
  exact congrArg x (by idx_tac)
theorem at_v45 (x : (⟨S32768x30x7x7, .f32⟩ : BufTy).Contents (Elt Ideal)) (b : Fin 32768) (i j : Fin 7) :
    val_main_v45 (F := Ideal) x (ix3 b i j) = x (ix4 b (3 : Fin 30) i j) := by
  rw [val_main_v45_apply, val_main_v44_apply, val_main_v4_apply]
  exact congrArg x (by idx_tac)
theorem at_v47 (x : (⟨S32768x30x7x7, .f32⟩ : BufTy).Contents (Elt Ideal)) (b : Fin 32768) (i j : Fin 7) :
    val_main_v47 (F := Ideal) x (ix3 b i j) = x (ix4 b (1 : Fin 30) i j) := by
  rw [val_main_v47_apply, val_main_v46_apply, val_main_v4_apply]
  exact congrArg x (by idx_tac)
theorem at_v53 (x : (⟨S32768x30x7x7, .f32⟩ : BufTy).Contents (Elt Ideal)) (b : Fin 32768) (i j : Fin 7) :
    val_main_v53 (F := Ideal) x (ix3 b i j) = x (ix4 b (2 : Fin 30) i j) := by
  rw [val_main_v53_apply, val_main_v52_apply, val_main_v5_apply]
  exact congrArg x (by idx_tac)
theorem at_v55 (x : (⟨S32768x30x7x7, .f32⟩ : BufTy).Contents (Elt Ideal)) (b : Fin 32768) (i j : Fin 7) :
    val_main_v55 (F := Ideal) x (ix3 b i j) = x (ix4 b (0 : Fin 30) i j) := by
  rw [val_main_v55_apply, val_main_v54_apply, val_main_v5_apply]
  exact congrArg x (by idx_tac)
theorem at_v60 (x : (⟨S32768x30x7x7, .f32⟩ : BufTy).Contents (Elt Ideal)) (b : Fin 32768) (i j : Fin 7) :
    val_main_v60 (F := Ideal) x (ix3 b i j) = x (ix4 b (3 : Fin 30) i j) := by
  rw [val_main_v60_apply, val_main_v59_apply, val_main_v5_apply]
  exact congrArg x (by idx_tac)
theorem at_v62 (x : (⟨S32768x30x7x7, .f32⟩ : BufTy).Contents (Elt Ideal)) (b : Fin 32768) (i j : Fin 7) :
    val_main_v62 (F := Ideal) x (ix3 b i j) = x (ix4 b (1 : Fin 30) i j) := by
  rw [val_main_v62_apply, val_main_v61_apply, val_main_v5_apply]
  exact congrArg x (by idx_tac)
theorem at_v83 (x : (⟨S32768x30x7x7, .f32⟩ : BufTy).Contents (Elt Ideal)) (b : Fin 32768) (i j : Fin 7) :
    val_main_v83 (F := Ideal) x (ix3 b i j) = x (ix4 b (7 : Fin 30) i j) := by
  rw [val_main_v83_apply, val_main_v82_apply, val_main_v70_apply]
  exact congrArg x (by idx_tac)
theorem at_v85 (x : (⟨S32768x30x7x7, .f32⟩ : BufTy).Contents (Elt Ideal)) (b : Fin 32768) (i j : Fin 7) :
    val_main_v85 (F := Ideal) x (ix3 b i j) = x (ix4 b (7 : Fin 30) i j) := by
  rw [val_main_v85_apply, val_main_v84_apply, val_main_v71_apply]
  exact congrArg x (by idx_tac)
theorem at_v73 (x : (⟨S32768x30x7x7, .f32⟩ : BufTy).Contents (Elt Ideal)) (b : Fin 32768) (i j : Fin 7) :
    val_main_v73 (F := Ideal) x (ix3 b i j) = x (ix4 b (5 : Fin 30) i j) := by
  rw [val_main_v73_apply, val_main_v72_apply, val_main_v70_apply]
  exact congrArg x (by idx_tac)
theorem at_v75 (x : (⟨S32768x30x7x7, .f32⟩ : BufTy).Contents (Elt Ideal)) (b : Fin 32768) (i j : Fin 7) :
    val_main_v75 (F := Ideal) x (ix3 b i j) = x (ix4 b (5 : Fin 30) i j) := by
  rw [val_main_v75_apply, val_main_v74_apply, val_main_v71_apply]
  exact congrArg x (by idx_tac)
theorem at_v88 (x : (⟨S32768x30x7x7, .f32⟩ : BufTy).Contents (Elt Ideal)) (b : Fin 32768) (i j : Fin 7) :
    val_main_v88 (F := Ideal) x (ix3 b i j) = x (ix4 b (8 : Fin 30) i j) := by
  rw [val_main_v88_apply, val_main_v87_apply, val_main_v70_apply]
  exact congrArg x (by idx_tac)
theorem at_v90 (x : (⟨S32768x30x7x7, .f32⟩ : BufTy).Contents (Elt Ideal)) (b : Fin 32768) (i j : Fin 7) :
    val_main_v90 (F := Ideal) x (ix3 b i j) = x (ix4 b (8 : Fin 30) i j) := by
  rw [val_main_v90_apply, val_main_v89_apply, val_main_v71_apply]
  exact congrArg x (by idx_tac)
theorem at_v78 (x : (⟨S32768x30x7x7, .f32⟩ : BufTy).Contents (Elt Ideal)) (b : Fin 32768) (i j : Fin 7) :
    val_main_v78 (F := Ideal) x (ix3 b i j) = x (ix4 b (6 : Fin 30) i j) := by
  rw [val_main_v78_apply, val_main_v77_apply, val_main_v70_apply]
  exact congrArg x (by idx_tac)
theorem at_v80 (x : (⟨S32768x30x7x7, .f32⟩ : BufTy).Contents (Elt Ideal)) (b : Fin 32768) (i j : Fin 7) :
    val_main_v80 (F := Ideal) x (ix3 b i j) = x (ix4 b (6 : Fin 30) i j) := by
  rw [val_main_v80_apply, val_main_v79_apply, val_main_v71_apply]
  exact congrArg x (by idx_tac)
theorem at_v104 (x : (⟨S32768x30x7x7, .f32⟩ : BufTy).Contents (Elt Ideal)) (b : Fin 32768) (i j : Fin 7) :
    val_main_v104 (F := Ideal) x (ix3 b i j) = x (ix4 b (7 : Fin 30) i j) := by
  rw [val_main_v104_apply, val_main_v103_apply, val_main_v70_apply]
  exact congrArg x (by idx_tac)
theorem at_v106 (x : (⟨S32768x30x7x7, .f32⟩ : BufTy).Contents (Elt Ideal)) (b : Fin 32768) (i j : Fin 7) :
    val_main_v106 (F := Ideal) x (ix3 b i j) = x (ix4 b (5 : Fin 30) i j) := by
  rw [val_main_v106_apply, val_main_v105_apply, val_main_v70_apply]
  exact congrArg x (by idx_tac)
theorem at_v111 (x : (⟨S32768x30x7x7, .f32⟩ : BufTy).Contents (Elt Ideal)) (b : Fin 32768) (i j : Fin 7) :
    val_main_v111 (F := Ideal) x (ix3 b i j) = x (ix4 b (8 : Fin 30) i j) := by
  rw [val_main_v111_apply, val_main_v110_apply, val_main_v70_apply]
  exact congrArg x (by idx_tac)
theorem at_v113 (x : (⟨S32768x30x7x7, .f32⟩ : BufTy).Contents (Elt Ideal)) (b : Fin 32768) (i j : Fin 7) :
    val_main_v113 (F := Ideal) x (ix3 b i j) = x (ix4 b (6 : Fin 30) i j) := by
  rw [val_main_v113_apply, val_main_v112_apply, val_main_v70_apply]
  exact congrArg x (by idx_tac)
theorem at_v119 (x : (⟨S32768x30x7x7, .f32⟩ : BufTy).Contents (Elt Ideal)) (b : Fin 32768) (i j : Fin 7) :
    val_main_v119 (F := Ideal) x (ix3 b i j) = x (ix4 b (7 : Fin 30) i j) := by
  rw [val_main_v119_apply, val_main_v118_apply, val_main_v71_apply]
  exact congrArg x (by idx_tac)
theorem at_v121 (x : (⟨S32768x30x7x7, .f32⟩ : BufTy).Contents (Elt Ideal)) (b : Fin 32768) (i j : Fin 7) :
    val_main_v121 (F := Ideal) x (ix3 b i j) = x (ix4 b (5 : Fin 30) i j) := by
  rw [val_main_v121_apply, val_main_v120_apply, val_main_v71_apply]
  exact congrArg x (by idx_tac)
theorem at_v126 (x : (⟨S32768x30x7x7, .f32⟩ : BufTy).Contents (Elt Ideal)) (b : Fin 32768) (i j : Fin 7) :
    val_main_v126 (F := Ideal) x (ix3 b i j) = x (ix4 b (8 : Fin 30) i j) := by
  rw [val_main_v126_apply, val_main_v125_apply, val_main_v71_apply]
  exact congrArg x (by idx_tac)
theorem at_v128 (x : (⟨S32768x30x7x7, .f32⟩ : BufTy).Contents (Elt Ideal)) (b : Fin 32768) (i j : Fin 7) :
    val_main_v128 (F := Ideal) x (ix3 b i j) = x (ix4 b (6 : Fin 30) i j) := by
  rw [val_main_v128_apply, val_main_v127_apply, val_main_v71_apply]
  exact congrArg x (by idx_tac)
theorem at_v138 (x : (⟨S32768x30x7x7, .f32⟩ : BufTy).Contents (Elt Ideal)) (b : Fin 32768) (i j : Fin 7) :
    val_main_v138 (F := Ideal) x (ix3 b i j) = x (ix4 b (0 : Fin 30) i j) := by
  rw [val_main_v138_apply, val_main_v137_apply]
  exact congrArg x (by idx_tac)
theorem at_v140 (x : (⟨S32768x30x7x7, .f32⟩ : BufTy).Contents (Elt Ideal)) (b : Fin 32768) (i j : Fin 7) :
    val_main_v140 (F := Ideal) x (ix3 b i j) = x (ix4 b (0 : Fin 30) i j) := by
  rw [val_main_v140_apply, val_main_v139_apply]
  exact congrArg x (by idx_tac)
theorem at_v144 (x : (⟨S32768x30x7x7, .f32⟩ : BufTy).Contents (Elt Ideal)) (b : Fin 32768) (i j : Fin 7) :
    val_main_v144 (F := Ideal) x (ix3 b i j) = x (ix4 b (1 : Fin 30) i j) := by
  rw [val_main_v144_apply, val_main_v143_apply]
  exact congrArg x (by idx_tac)
theorem at_v146 (x : (⟨S32768x30x7x7, .f32⟩ : BufTy).Contents (Elt Ideal)) (b : Fin 32768) (i j : Fin 7) :
    val_main_v146 (F := Ideal) x (ix3 b i j) = x (ix4 b (1 : Fin 30) i j) := by
  rw [val_main_v146_apply, val_main_v145_apply]
  exact congrArg x (by idx_tac)
theorem at_v168 (x : (⟨S32768x30x7x7, .f32⟩ : BufTy).Contents (Elt Ideal)) (b : Fin 32768) (i j : Fin 7) :
    val_main_v168 (F := Ideal) x (ix3 b i j) = x (ix4 b (2 : Fin 30) i j) := by
  rw [val_main_v168_apply, val_main_v167_apply]
  exact congrArg x (by idx_tac)
theorem at_v171 (x : (⟨S32768x30x7x7, .f32⟩ : BufTy).Contents (Elt Ideal)) (b : Fin 32768) (i j : Fin 7) :
    val_main_v171 (F := Ideal) x (ix3 b i j) = x (ix4 b (2 : Fin 30) i j) := by
  rw [val_main_v171_apply, val_main_v170_apply]
  exact congrArg x (by idx_tac)
theorem at_v176 (x : (⟨S32768x30x7x7, .f32⟩ : BufTy).Contents (Elt Ideal)) (b : Fin 32768) (i j : Fin 7) :
    val_main_v176 (F := Ideal) x (ix3 b i j) = x (ix4 b (3 : Fin 30) i j) := by
  rw [val_main_v176_apply, val_main_v175_apply]
  exact congrArg x (by idx_tac)
theorem at_v179 (x : (⟨S32768x30x7x7, .f32⟩ : BufTy).Contents (Elt Ideal)) (b : Fin 32768) (i j : Fin 7) :
    val_main_v179 (F := Ideal) x (ix3 b i j) = x (ix4 b (3 : Fin 30) i j) := by
  rw [val_main_v179_apply, val_main_v178_apply]
  exact congrArg x (by idx_tac)
theorem at_v153 (x : (⟨S32768x30x7x7, .f32⟩ : BufTy).Contents (Elt Ideal)) (b : Fin 32768) (i j : Fin 7) :
    val_main_v153 (F := Ideal) x (ix3 b i j) = x (ix4 b (5 : Fin 30) i j) := by
  rw [val_main_v153_apply, val_main_v152_apply]
  exact congrArg x (by idx_tac)
theorem at_v155 (x : (⟨S32768x30x7x7, .f32⟩ : BufTy).Contents (Elt Ideal)) (b : Fin 32768) (i j : Fin 7) :
    val_main_v155 (F := Ideal) x (ix3 b i j) = x (ix4 b (5 : Fin 30) i j) := by
  rw [val_main_v155_apply, val_main_v154_apply]
  exact congrArg x (by idx_tac)
theorem at_v159 (x : (⟨S32768x30x7x7, .f32⟩ : BufTy).Contents (Elt Ideal)) (b : Fin 32768) (i j : Fin 7) :
    val_main_v159 (F := Ideal) x (ix3 b i j) = x (ix4 b (6 : Fin 30) i j) := by
  rw [val_main_v159_apply, val_main_v158_apply]
  exact congrArg x (by idx_tac)
theorem at_v161 (x : (⟨S32768x30x7x7, .f32⟩ : BufTy).Contents (Elt Ideal)) (b : Fin 32768) (i j : Fin 7) :
    val_main_v161 (F := Ideal) x (ix3 b i j) = x (ix4 b (6 : Fin 30) i j) := by
  rw [val_main_v161_apply, val_main_v160_apply]
  exact congrArg x (by idx_tac)
theorem at_v187 (x : (⟨S32768x30x7x7, .f32⟩ : BufTy).Contents (Elt Ideal)) (b : Fin 32768) (i j : Fin 7) :
    val_main_v187 (F := Ideal) x (ix3 b i j) = x (ix4 b (7 : Fin 30) i j) := by
  rw [val_main_v187_apply, val_main_v186_apply]
  exact congrArg x (by idx_tac)
theorem at_v190 (x : (⟨S32768x30x7x7, .f32⟩ : BufTy).Contents (Elt Ideal)) (b : Fin 32768) (i j : Fin 7) :
    val_main_v190 (F := Ideal) x (ix3 b i j) = x (ix4 b (7 : Fin 30) i j) := by
  rw [val_main_v190_apply, val_main_v189_apply]
  exact congrArg x (by idx_tac)
theorem at_v195 (x : (⟨S32768x30x7x7, .f32⟩ : BufTy).Contents (Elt Ideal)) (b : Fin 32768) (i j : Fin 7) :
    val_main_v195 (F := Ideal) x (ix3 b i j) = x (ix4 b (8 : Fin 30) i j) := by
  rw [val_main_v195_apply, val_main_v194_apply]
  exact congrArg x (by idx_tac)
theorem at_v198 (x : (⟨S32768x30x7x7, .f32⟩ : BufTy).Contents (Elt Ideal)) (b : Fin 32768) (i j : Fin 7) :
    val_main_v198 (F := Ideal) x (ix3 b i j) = x (ix4 b (8 : Fin 30) i j) := by
  rw [val_main_v198_apply, val_main_v197_apply]
  exact congrArg x (by idx_tac)
theorem at_v206 (x : (⟨S32768x30x7x7, .f32⟩ : BufTy).Contents (Elt Ideal)) (b : Fin 32768) (i j : Fin 7) :
    val_main_v206 (F := Ideal) x (ix3 b i j) = x (ix4 b (9 : Fin 30) i j) := by
  rw [val_main_v206_apply, val_main_v205_apply]
  exact congrArg x (by idx_tac)
theorem at_v217 (x : (⟨S32768x30x7x7, .f32⟩ : BufTy).Contents (Elt Ideal)) (b : Fin 32768) (i j : Fin 7) :
    val_main_v217 (F := Ideal) x (ix3 b i j) = x (ix4 b (4 : Fin 30) i j) := by
  rw [val_main_v217_apply, val_main_v216_apply]
  exact congrArg x (by idx_tac)
theorem at_v219 (x : (⟨S32768x30x7x7, .f32⟩ : BufTy).Contents (Elt Ideal)) (b : Fin 32768) (i j : Fin 7) :
    val_main_v219 (F := Ideal) x (ix3 b i j) = x (ix4 b (9 : Fin 30) i j) := by
  rw [val_main_v219_apply, val_main_v218_apply]
  exact congrArg x (by idx_tac)

/-! ## The broadcast constants at (b, i, j) -/

theorem at_v2 (b : Fin 32768) (i j : Fin 7) :
    val_main_v2 (F := Ideal) (ix3 b i j) = Cert.Loss.one := by
  rw [val_main_v2_apply, val_main_cst_apply]
  first | done | rfl
theorem at_v27 (b : Fin 32768) (i j : Fin 7) :
    val_main_v27 (F := Ideal) (ix3 b i j) = Cert.Loss.one := by
  rw [val_main_v27_apply, val_main_cst_0_apply]
  first | done | rfl
theorem at_v29 (b : Fin 32768) (i j : Fin 7) :
    val_main_v29 (F := Ideal) (ix3 b i j) = Cert.Loss.zero := by
  rw [val_main_v29_apply, val_main_cst_1_apply]
  first | done | rfl
theorem at_v32 (b : Fin 32768) (i j : Fin 7) :
    val_main_v32 (F := Ideal) (ix3 b i j) = Cert.Loss.one := by
  rw [val_main_v32_apply, val_main_cst_2_apply]
  first | done | rfl
theorem at_v34 (b : Fin 32768) (i j : Fin 7) :
    val_main_v34 (F := Ideal) (ix3 b i j) = Cert.Loss.zero := by
  rw [val_main_v34_apply, val_main_cst_3_apply]
  first | done | rfl
theorem at_v42 (b : Fin 32768) (i j : Fin 7) :
    val_main_v42 (F := Ideal) (ix3 b i j) = Cert.Loss.one := by
  rw [val_main_v42_apply, val_main_cst_4_apply]
  first | done | rfl
theorem at_v49 (b : Fin 32768) (i j : Fin 7) :
    val_main_v49 (F := Ideal) (ix3 b i j) = Cert.Loss.one := by
  rw [val_main_v49_apply, val_main_cst_5_apply]
  first | done | rfl
theorem at_v57 (b : Fin 32768) (i j : Fin 7) :
    val_main_v57 (F := Ideal) (ix3 b i j) = Cert.Loss.one := by
  rw [val_main_v57_apply, val_main_cst_6_apply]
  first | done | rfl
theorem at_v64 (b : Fin 32768) (i j : Fin 7) :
    val_main_v64 (F := Ideal) (ix3 b i j) = Cert.Loss.one := by
  rw [val_main_v64_apply, val_main_cst_7_apply]
  first | done | rfl
theorem at_v93 (b : Fin 32768) (i j : Fin 7) :
    val_main_v93 (F := Ideal) (ix3 b i j) = Cert.Loss.one := by
  rw [val_main_v93_apply, val_main_cst_8_apply]
  first | done | rfl
theorem at_v95 (b : Fin 32768) (i j : Fin 7) :
    val_main_v95 (F := Ideal) (ix3 b i j) = Cert.Loss.zero := by
  rw [val_main_v95_apply, val_main_cst_9_apply]
  first | done | rfl
theorem at_v98 (b : Fin 32768) (i j : Fin 7) :
    val_main_v98 (F := Ideal) (ix3 b i j) = Cert.Loss.one := by
  rw [val_main_v98_apply, val_main_cst_10_apply]
  first | done | rfl
theorem at_v100 (b : Fin 32768) (i j : Fin 7) :
    val_main_v100 (F := Ideal) (ix3 b i j) = Cert.Loss.zero := by
  rw [val_main_v100_apply, val_main_cst_11_apply]
  first | done | rfl
theorem at_v108 (b : Fin 32768) (i j : Fin 7) :
    val_main_v108 (F := Ideal) (ix3 b i j) = Cert.Loss.one := by
  rw [val_main_v108_apply, val_main_cst_12_apply]
  first | done | rfl
theorem at_v115 (b : Fin 32768) (i j : Fin 7) :
    val_main_v115 (F := Ideal) (ix3 b i j) = Cert.Loss.one := by
  rw [val_main_v115_apply, val_main_cst_13_apply]
  first | done | rfl
theorem at_v123 (b : Fin 32768) (i j : Fin 7) :
    val_main_v123 (F := Ideal) (ix3 b i j) = Cert.Loss.one := by
  rw [val_main_v123_apply, val_main_cst_14_apply]
  first | done | rfl
theorem at_v130 (b : Fin 32768) (i j : Fin 7) :
    val_main_v130 (F := Ideal) (ix3 b i j) = Cert.Loss.one := by
  rw [val_main_v130_apply, val_main_cst_15_apply]
  first | done | rfl
theorem at_v150 (b : Fin 32768) (i j : Fin 7) :
    val_main_v150 (F := Ideal) (ix3 b i j) = Cert.Loss.five := by
  rw [val_main_v150_apply, val_main_cst_16_apply]
  first | done | rfl
theorem at_v184 (b : Fin 32768) (i j : Fin 7) :
    val_main_v184 (F := Ideal) (ix3 b i j) = Cert.Loss.five := by
  rw [val_main_v184_apply, val_main_cst_18_apply]
  first | done | rfl
theorem at_v165 (b : Fin 32768) (i j : Fin 7) :
    val_main_v165 (F := Ideal) (ix3 b i j) = Cert.Loss.five := by
  rw [val_main_v165_apply, val_main_cst_17_apply]
  first | done | rfl
theorem at_v203 (b : Fin 32768) (i j : Fin 7) :
    val_main_v203 (F := Ideal) (ix3 b i j) = Cert.Loss.five := by
  rw [val_main_v203_apply, val_main_cst_19_apply]
  first | done | rfl
theorem at_v210 (b : Fin 32768) (i j : Fin 7) :
    val_main_v210 (F := Ideal) (ix3 b i j) = Cert.Loss.half := by
  rw [val_main_v210_apply, val_main_cst_20_apply]
  first | done | rfl
theorem at_v222 (b : Fin 32768) (i j : Fin 7) :
    val_main_v222 (F := Ideal) (ix3 b i j) = Cert.Loss.half := by
  rw [val_main_v222_apply, val_main_cst_21_apply]
  first | done | rfl

/-! ## The two intersection-over-union quotients -/

theorem iou1_at (x0 x1 : (⟨S32768x30x7x7, .f32⟩ : BufTy).Contents (Elt Ideal)) (b : Fin 32768) (i j : Fin 7) :
    val_main_v69 (F := Ideal) x0 x1 (ix3 b i j)
      = Cert.Loss.iou (x0 (ix4 b (0 : Fin 30) i j)) (x0 (ix4 b (1 : Fin 30) i j)) (x0 (ix4 b (2 : Fin 30) i j)) (x0 (ix4 b (3 : Fin 30) i j))
          (x1 (ix4 b (0 : Fin 30) i j)) (x1 (ix4 b (1 : Fin 30) i j)) (x1 (ix4 b (2 : Fin 30) i j)) (x1 (ix4 b (3 : Fin 30) i j)) := by
  simp only [val_main_v20_apply, val_main_v10_apply, val_main_v26_apply, val_main_v28_apply, val_main_v30_apply, val_main_v25_apply, val_main_v15_apply, val_main_v31_apply, val_main_v33_apply, val_main_v35_apply, val_main_v36_apply, val_main_v41_apply, val_main_v43_apply, val_main_v48_apply, val_main_v50_apply, val_main_v51_apply, val_main_v56_apply, val_main_v58_apply, val_main_v63_apply, val_main_v65_apply, val_main_v66_apply, val_main_v67_apply, val_main_v68_apply, val_main_v69_apply,
    at_v17, at_v19, at_v7, at_v9, at_v27, at_v29, at_v22, at_v24, at_v12, at_v14, at_v32, at_v34, at_v38, at_v40, at_v42, at_v45, at_v47, at_v49, at_v53, at_v55, at_v57, at_v60, at_v62, at_v64,
    Ideal.mulf_def, Ideal.addf_def, Ideal.subf_def, Ideal.maximumf_def, Ideal.minimumf_def, Ideal.hostDivf_def, Ideal.hostUnary_sqrt_def]
  first | done | rfl
theorem iou2_at (x0 x1 : (⟨S32768x30x7x7, .f32⟩ : BufTy).Contents (Elt Ideal)) (b : Fin 32768) (i j : Fin 7) :
    val_main_v135 (F := Ideal) x0 x1 (ix3 b i j)
      = Cert.Loss.iou (x0 (ix4 b (5 : Fin 30) i j)) (x0 (ix4 b (6 : Fin 30) i j)) (x0 (ix4 b (7 : Fin 30) i j)) (x0 (ix4 b (8 : Fin 30) i j))
          (x1 (ix4 b (5 : Fin 30) i j)) (x1 (ix4 b (6 : Fin 30) i j)) (x1 (ix4 b (7 : Fin 30) i j)) (x1 (ix4 b (8 : Fin 30) i j)) := by
  simp only [val_main_v86_apply, val_main_v76_apply, val_main_v92_apply, val_main_v94_apply, val_main_v96_apply, val_main_v91_apply, val_main_v81_apply, val_main_v97_apply, val_main_v99_apply, val_main_v101_apply, val_main_v102_apply, val_main_v107_apply, val_main_v109_apply, val_main_v114_apply, val_main_v116_apply, val_main_v117_apply, val_main_v122_apply, val_main_v124_apply, val_main_v129_apply, val_main_v131_apply, val_main_v132_apply, val_main_v133_apply, val_main_v134_apply, val_main_v135_apply,
    at_v83, at_v85, at_v73, at_v75, at_v93, at_v95, at_v88, at_v90, at_v78, at_v80, at_v98, at_v100, at_v104, at_v106, at_v108, at_v111, at_v113, at_v115, at_v119, at_v121, at_v123, at_v126, at_v128, at_v130,
    Ideal.mulf_def, Ideal.addf_def, Ideal.subf_def, Ideal.maximumf_def, Ideal.minimumf_def, Ideal.hostDivf_def, Ideal.hostUnary_sqrt_def]
  first | done | rfl

/-! ## The cell term -/

theorem main_at (x0 x1 : (⟨S32768x30x7x7, .f32⟩ : BufTy).Contents (Elt Ideal)) (b : Fin 32768) (i j : Fin 7) :
    val_main_v229 (F := Ideal) x0 x1 (ix3 b i j) = Cert.Loss.cell (fun ch => x0 (ix4 b ch i j)) (fun ch => x1 (ix4 b ch i j)) := by
  simp only [val_main_v3_apply, val_main_v136_apply, val_main_v141_apply, val_main_v142_apply, val_main_v147_apply, val_main_v148_apply, val_main_v149_apply, val_main_v151_apply, val_main_v169_apply, val_main_v172_apply, val_main_v173_apply, val_main_v174_apply, val_main_v177_apply, val_main_v180_apply, val_main_v181_apply, val_main_v182_apply, val_main_v183_apply, val_main_v185_apply, val_main_v212_apply, val_main_v156_apply, val_main_v157_apply, val_main_v162_apply, val_main_v163_apply, val_main_v164_apply, val_main_v166_apply, val_main_v188_apply, val_main_v191_apply, val_main_v192_apply, val_main_v193_apply, val_main_v196_apply, val_main_v199_apply, val_main_v200_apply, val_main_v201_apply, val_main_v202_apply, val_main_v204_apply, val_main_v213_apply, val_main_v214_apply, val_main_v207_apply, val_main_v208_apply, val_main_v209_apply, val_main_v211_apply, val_main_v215_apply, val_main_v220_apply, val_main_v221_apply, val_main_v223_apply, val_main_v229_apply,
    iou1_at, iou2_at,
    at_v1, at_v2, at_v138, at_v140, at_v144, at_v146, at_v150, at_v168, at_v171, at_v176, at_v179, at_v184, at_v153, at_v155, at_v159, at_v161, at_v165, at_v187, at_v190, at_v195, at_v198, at_v203, at_v206, at_v210, at_v217, at_v219, at_v222,
    Ideal.mulf_def, Ideal.addf_def, Ideal.subf_def, Ideal.maximumf_def, Ideal.minimumf_def, Ideal.hostDivf_def, Ideal.hostUnary_sqrt_def]
  first | done | rfl

/-! ## The class part -/

theorem cls_at (x0 x1 : (⟨S32768x30x7x7, .f32⟩ : BufTy).Contents (Elt Ideal)) (b : Fin 32768) (ch : Fin 20) (i j : Fin 7) :
    val_main_v227 (F := Ideal) x0 x1 (ix4 b ch i j) = Cert.Loss.sqd (x0 (ix4 b ⟨10 + ch.val, by omega⟩ i j)) (x1 (ix4 b ⟨10 + ch.val, by omega⟩ i j)) := by
  have h0 : idx_main_v224 (ix4 b ch i j) = ix4 b (⟨10 + ch.val, by omega⟩ : Fin 30) i j := by
    funext a
    match a with
    | ⟨0, _⟩ => rfl
    | ⟨1, _⟩ => rfl
    | ⟨2, _⟩ => rfl
    | ⟨3, _⟩ => rfl
  have h1 : idx_main_v225 (ix4 b ch i j) = ix4 b (⟨10 + ch.val, by omega⟩ : Fin 30) i j := by
    funext a
    match a with
    | ⟨0, _⟩ => rfl
    | ⟨1, _⟩ => rfl
    | ⟨2, _⟩ => rfl
    | ⟨3, _⟩ => rfl
  rw [val_main_v227_apply, val_main_v226_apply, val_main_v224_apply, val_main_v225_apply, h0, h1]
  first | done | rfl

end Cert.Loss.Ref

end
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.Total.lean ====
/-
  The loss as one function of the two whole arrays: the per-cell terms summed over all 32768 × 7 × 7 cells, plus the
  squared class differences summed over all 32768 × 20 × 7 × 7 class entries, divided by the batch size.
-/
import proofs.«103485_j16303695855705_2_alg».proof.Proof.Cell

noncomputable section

open scoped BigOperators

namespace Cert.Loss

open Idealize.ShloMosaic Idealize.ShloMosaic.ValueIdx

/-- The sum of the per-cell terms over every cell of the two whole arrays. -/
def mainTotal (x0 x1 : (⟨4, ![32768, 30, 7, 7]⟩ : Shape).Idx → EReal) : EReal :=
  ∑ b : Fin 32768, ∑ i : Fin 7, ∑ j : Fin 7, cell (fun ch => x0 (ix4 b ch i j)) (fun ch => x1 (ix4 b ch i j))

/-- The sum of the squared class differences over every class entry of the two whole arrays. -/
def clsTotal (x0 x1 : (⟨4, ![32768, 30, 7, 7]⟩ : Shape).Idx → EReal) : EReal :=
  ∑ b : Fin 32768, ∑ ch : Fin 20, ∑ i : Fin 7, ∑ j : Fin 7,
    sqd (x0 (ix4 b ⟨10 + ch.val, by omega⟩ i j)) (x1 (ix4 b ⟨10 + ch.val, by omega⟩ i j))

/-- The loss: (main total + class total) / 32768, with the ideal instance's quotient. -/
def loss (x0 x1 : (⟨4, ![32768, 30, 7, 7]⟩ : Shape).Idx → EReal) : EReal :=
  Ideal.div (mainTotal x0 x1 + clsTotal x0 x1) batch

end Cert.Loss

end
-- ==== Proof.RefTotal.lean ====
/-
  The reference's result at the ideal instance is the loss of its two argument arrays: the host takes each of the two
  totals as one sum over every index from the zero word, which is the extended real 0, adds them and divides.
-/
import proofs.«103485_j16303695855705_2_alg».proof.Proof.RefCell
import proofs.«103485_j16303695855705_2_alg».proof.Proof.LibSums
import proofs.«103485_j16303695855705_2_alg».proof.Proof.Total

noncomputable section

open scoped BigOperators

namespace Cert.Loss

open Idealize.ShloMosaic Idealize.ShloMosaic.ValueIdx Cert.Sums

namespace Ref

open Cert.ReferenceIdeal Cert.ReferenceIdeal.Read

/-- The reference's result entry is the loss of its two argument arrays. -/
theorem result_eq (x0 x1 : (⟨S32768x30x7x7, .f32⟩ : BufTy).Contents (Elt Ideal)) (i : S_.Idx) :
    val_main_v232 (F := Ideal) x0 x1 i = loss x0 x1 := by
  rw [val_main_v232_apply, val_main_v231_apply, val_main_v230_apply, val_main_v228_apply, val_main_cst_24_apply,
    val_main_cst_23_apply, val_main_cst_22_apply, sum_idx3, sum_idx4]
  simp only [main_at, cls_at, Ideal.hostDivf_def, Ideal.addf_def, Ideal.ofBits_def, Ideal.ofBits_zero_f32, zero_add]
  rfl

end Ref

end Cert.Loss

end
-- ==== Proof.KernelPieces.lean ====
/-
  What each of the body's three control cases leaves in the one-entry accumulator, as a value: at the first grid point
  the body clears the accumulator and then adds the block's two sums to the cleared entry; at a middle point it adds them
  to what the point before left; at the last point it adds them and then divides by the batch size.
-/
import proofs.«103485_j16303695855705_2_alg».proof.Proof.Gen.KernelIdeal.Frame
import Idealize.ShloMosaic.Lib.Pipeline.Value
import Idealize.ShloMosaic.Lib.Tactic

noncomputable section

namespace Cert.Loss.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The value the body's main store writes, from the two loaded blocks and the accumulator's entry as loaded. -/
def stored (x0 x1 : Vec F S32x30x7x7 .f32) (acc : Vec F S1x1 .f32) : FVec F S1x1 .f32 :=
  k0_pay24 x0 x1
    (k0_pay10 (k0_pay3 x0) (k0_pay4 x1) (k0_pay7 x0 x1) (k0_pay8 x0) (k0_pay9 x0))
    (k0_pay14 (k0_pay5 x0) (k0_pay6 x1) (k0_pay11 (k0_pay5 x0) (k0_pay6 x1)) (k0_pay12 (k0_pay5 x0) (k0_pay6 x1))
      (k0_pay13 (k0_pay5 x0) (k0_pay6 x1)))
    (k0_pay15 (k0_pay5 x0) (k0_pay6 x1)
      (k0_pay10 (k0_pay3 x0) (k0_pay4 x1) (k0_pay7 x0 x1) (k0_pay8 x0) (k0_pay9 x0))
      (k0_pay11 (k0_pay5 x0) (k0_pay6 x1)) (k0_pay12 (k0_pay5 x0) (k0_pay6 x1)) (k0_pay13 (k0_pay5 x0) (k0_pay6 x1)))
    (k0_pay16 x1)
    (k0_pay20 (k0_pay17 x0 x1) (k0_pay18 x1) (k0_pay19 x0))
    (k0_pay21 x0 x1) (k0_pay22 x0 x1) (k0_pay23 x0 x1) acc

/-- A middle point: the sums added to what the point before left. -/
theorem out_B (c : Dev nD) (i : grid0.Coords) (a1 : Memref sig .tc .vmem S32x30x7x7 .f32) (h1 : a1.IsWhole)
    (a2 : Memref sig .tc .vmem S32x30x7x7 .f32) (h2 : a2.IsWhole) (a3 : Memref sig .tc .vmem S1x1 .f32) (h3 : a3.IsWhole)
    (hc0 : ¬cond0_0 i) (hc1 : ¬cond0_1 i) (x0 x1 : Vec F S32x30x7x7 .f32) (xo : Vec F S1x1 .f32) :
    out0_B_2 c i a1 h1 a2 h2 a3 h3 hc0 hc1 x0 x1 xo = stored x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz2]
  simp only [View.readAt_eq_ld, h1.read_unread, h2.read_unread, h3.read_unread, View.ld_unit_zero (S := S32x30x7x7) hz4,
    View.ld_unit_zero (S := S1x1) hz2]
  rfl

/-- The first point: the sums added to the cleared entry. -/
theorem out_A (c : Dev nD) (i : grid0.Coords) (a1 : Memref sig .tc .vmem S32x30x7x7 .f32) (h1 : a1.IsWhole)
    (a2 : Memref sig .tc .vmem S32x30x7x7 .f32) (h2 : a2.IsWhole) (a3 : Memref sig .tc .vmem S1x1 .f32) (h3 : a3.IsWhole)
    (hc0 : cond0_0 i) (hc1 : ¬cond0_1 i) (x0 x1 : Vec F S32x30x7x7 .f32) :
    out0_A_2 c i a1 h1 a2 h2 a3 h3 hc0 hc1 x0 x1 = stored x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S32x30x7x7) hz4]
  rfl

/-- The last point: the sums added to what the point before left, then divided by the batch size. -/
theorem out_C (c : Dev nD) (i : grid0.Coords) (a1 : Memref sig .tc .vmem S32x30x7x7 .f32) (h1 : a1.IsWhole)
    (a2 : Memref sig .tc .vmem S32x30x7x7 .f32) (h2 : a2.IsWhole) (a3 : Memref sig .tc .vmem S1x1 .f32) (h3 : a3.IsWhole)
    (hc0 : ¬cond0_0 i) (hc1 : cond0_1 i) (x0 x1 : Vec F S32x30x7x7 .f32) (xo : Vec F S1x1 .f32) :
    out0_C_2 c i a1 h1 a2 h2 a3 h3 hc0 hc1 x0 x1 xo = k0_pay1 (stored x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz2, View.readCov_unit_zero (S := S1x1) _ hz2]
  simp only [View.readAt_eq_ld, h1.read_unread, h2.read_unread, h3.read_unread, View.ld_unit_zero (S := S32x30x7x7) hz4,
    View.ld_unit_zero (S := S1x1) hz2]
  rfl

end Cert.Loss.Pieces

end
-- ==== Proof.KernelCell.lean ====
/-
  The kernel's block arithmetic read at an index. A block holds 32 samples; every intermediate vector of the body is,
  at sample b and grid cell (i, j), a function of that cell's thirty predicted and thirty labelled channels only:
  a channel slice followed by the drop of its unit axis reads the block at (b, channel, i, j); the elementwise
  operations act entry by entry. So the vector the body sums for the main term holds, at (b, i, j), the per-cell loss
  term of that cell, and the vector it sums for the class term holds, at (b, ch, i, j), the squared difference of class
  channel 10 + ch.
-/
import proofs.«103485_j16303695855705_2_alg».proof.Proof.Gen.KernelIdeal.Skeleton
import proofs.«103485_j16303695855705_2_alg».proof.Proof.Cell
import Idealize.ShloMosaic.Lib.ValueIdx
import Idealize.ShloMosaic.Lib.ValueLayout
import Idealize.ShloMosaic.Lib.Pipeline.Value

noncomputable section

namespace Cert.Loss.Kernel

open Idealize.ShloMosaic Idealize.ShloMosaic.ValueIdx Cert.KernelIdeal Cert.KernelIdeal.Gen Cert.Loss

/-! ## Channel slices read at an index -/

/-- A slice of `m` channels from channel `o` stays inside the `C` channels. -/
theorem chan_lt {B C m o : Nat} (hs : (⟨4, ![B, C, 7, 7]⟩ : Shape).Slices ![0, o, 0, 0] ⟨4, ![B, m, 7, 7]⟩) (kk : Fin m) :
    o + kk.val < C := by
  obtain ⟨_, h2⟩ := hs
  have h : o + m ≤ C := h2 1
  have := kk.isLt
  omega

/-- A slice of channels read at (b, kk, i, j) is the source at (b, o + kk, i, j). -/
theorem slice_read {α : Type} {B C m : Nat} (o : Nat) (X : (⟨4, ![B, C, 7, 7]⟩ : Shape).Idx → α)
    (hs : (⟨4, ![B, C, 7, 7]⟩ : Shape).Slices ![0, o, 0, 0] ⟨4, ![B, m, 7, 7]⟩) (b : Fin B) (kk : Fin m) (i j : Fin 7) :
    extractStridedSlice ⟨4, ![B, m, 7, 7]⟩ ![0, o, 0, 0] X hs (ix4 b kk i j) = X (ix4 b ⟨o + kk.val, chan_lt hs kk⟩ i j) :=
  slice4_axis1_apply o X hs b kk i j ⟨o + kk.val, chan_lt hs kk⟩ rfl

/-- One channel cut out and its unit axis dropped, read at (b, i, j): the source at (b, k, i, j). -/
theorem chan_read {α : Type} {B C : Nat} (k : Nat) (X : (⟨4, ![B, C, 7, 7]⟩ : Shape).Idx → α)
    (hs : (⟨4, ![B, C, 7, 7]⟩ : Shape).Slices ![0, k, 0, 0] ⟨4, ![B, 1, 7, 7]⟩)
    (hc : (⟨4, ![B, 1, 7, 7]⟩ : Shape).ShapeCasts ⟨3, ![B, 7, 7]⟩) (b : Fin B) (i j : Fin 7) :
    shapeCast ⟨3, ![B, 7, 7]⟩ (extractStridedSlice ⟨4, ![B, 1, 7, 7]⟩ ![0, k, 0, 0] X hs) hc (ix3 b i j)
      = X (ix4 b ⟨k + (0 : Fin 1).val, chan_lt hs 0⟩ i j) := by
  refine (shapeCast_apply _ hc (ix3 b i j) (ix4 b (0 : Fin 1) i j) ?_).trans (slice_read k X hs b 0 i j)
  rw [Shape.rowMajor_val_four, Shape.rowMajor_val_three]
  show ((b.val * 1 + 0) * 7 + i.val) * 7 + j.val = (b.val * 7 + i.val) * 7 + j.val
  omega

/-- The unit axis of a one-channel block dropped, read at (b, i, j). -/
theorem unit_read {α : Type} {B : Nat} (X : (⟨4, ![B, 1, 7, 7]⟩ : Shape).Idx → α)
    (hc : (⟨4, ![B, 1, 7, 7]⟩ : Shape).ShapeCasts ⟨3, ![B, 7, 7]⟩) (b : Fin B) (i j : Fin 7) :
    shapeCast ⟨3, ![B, 7, 7]⟩ X hc (ix3 b i j) = X (ix4 b (0 : Fin 1) i j) := by
  refine shapeCast_apply _ hc (ix3 b i j) (ix4 b (0 : Fin 1) i j) ?_
  rw [Shape.rowMajor_val_four, Shape.rowMajor_val_three]
  show ((b.val * 1 + 0) * 7 + i.val) * 7 + j.val = (b.val * 7 + i.val) * 7 + j.val
  omega

/-- A square root taken entry by entry. -/
theorem sqrt_read {s : Shape} (v : FVec Ideal s .f32) (x : s.Idx) : sqrt v x = Ideal.sqrt (v x) := rfl

/-! ## The body's intermediate vectors as functions of the two loaded blocks -/

variable (v3 v4 : Vec Ideal S32x30x7x7 .f32)

/-- The overlap ratio of the first box pair, as the body computes it from the two blocks. -/
def iou1K : FVec Ideal S32x7x7 .f32 :=
  k0_pay10 (k0_pay3 v3) (k0_pay4 v4) (k0_pay7 v3 v4) (k0_pay8 v3) (k0_pay9 v3)

/-- The overlap ratio of the second box pair. -/
def iou2K : FVec Ideal S32x7x7 .f32 :=
  k0_pay14 (k0_pay5 v3) (k0_pay6 v4) (k0_pay11 (k0_pay5 v3) (k0_pay6 v4)) (k0_pay12 (k0_pay5 v3) (k0_pay6 v4))
    (k0_pay13 (k0_pay5 v3) (k0_pay6 v4))

/-- Which box is responsible: the first overlap ratio is at least the second. -/
def respK : IVec S32x7x7 1 :=
  k0_pay15 (k0_pay5 v3) (k0_pay6 v4) (iou1K v3 v4) (k0_pay11 (k0_pay5 v3) (k0_pay6 v4)) (k0_pay12 (k0_pay5 v3) (k0_pay6 v4))
    (k0_pay13 (k0_pay5 v3) (k0_pay6 v4))

/-- The first box's coordinate term. -/
def addr1K : FVec Ideal S32x7x7 .f32 := k0_pay20 (k0_pay17 v3 v4) (k0_pay18 v4) (k0_pay19 v3)

section At
variable (b : Fin 32) (i j : Fin 7)

theorem iou1K_at : iou1K v3 v4 (ix3 b i j)
    = iou (v3 (ix4 b 0 i j)) (v3 (ix4 b 1 i j)) (v3 (ix4 b 2 i j)) (v3 (ix4 b 3 i j))
        (v4 (ix4 b 0 i j)) (v4 (ix4 b 1 i j)) (v4 (ix4 b 2 i j)) (v4 (ix4 b 3 i j)) := by
  simp only [iou1K, k0_pay10, k0_pay3, k0_pay4, k0_pay7, k0_pay8, k0_pay9, chan_read, slice_read, mulf_apply, addf_apply,
    subf_apply, divf_apply, maximumf_apply, minimumf_apply, broadcast_apply, Ideal.ofBits_def]
  rfl

theorem iou2K_at : iou2K v3 v4 (ix3 b i j)
    = iou (v3 (ix4 b 5 i j)) (v3 (ix4 b 6 i j)) (v3 (ix4 b 7 i j)) (v3 (ix4 b 8 i j))
        (v4 (ix4 b 5 i j)) (v4 (ix4 b 6 i j)) (v4 (ix4 b 7 i j)) (v4 (ix4 b 8 i j)) := by
  simp only [iou2K, k0_pay14, k0_pay5, k0_pay6, k0_pay11, k0_pay12, k0_pay13, chan_read, slice_read, mulf_apply, addf_apply,
    subf_apply, divf_apply, maximumf_apply, minimumf_apply, broadcast_apply, Ideal.ofBits_def]
  rfl

theorem respK_at : respK v3 v4 (ix3 b i j)
    = FloatOps.cmpf (F := Ideal) (φ := .f32) .oge (iou1K v3 v4 (ix3 b i j)) (iou2K v3 v4 (ix3 b i j)) := rfl

theorem obj_at : k0_pay16 v4 (ix3 b i j) = FloatOps.cmpf (F := Ideal) (φ := .f32) .oeq (v4 (ix4 b 4 i j)) one := by
  simp only [k0_pay16, chan_read, cmpf_apply, broadcast_apply, Ideal.ofBits_def]
  rfl

theorem addr1K_at : addr1K v3 v4 (ix3 b i j)
    = five * sq2 (v4 (ix4 b 0 i j)) (v3 (ix4 b 0 i j)) (v4 (ix4 b 1 i j)) (v3 (ix4 b 1 i j)) := by
  simp only [addr1K, k0_pay20, k0_pay17, k0_pay18, k0_pay19, chan_read, unit_read, slice_read, mulf_apply, addf_apply, subf_apply,
    broadcast_apply, Ideal.ofBits_def]
  rfl

theorem addr2K_at : k0_pay21 v3 v4 (ix3 b i j)
    = five * sq2 (v4 (ix4 b 5 i j)) (v3 (ix4 b 5 i j)) (v4 (ix4 b 6 i j)) (v3 (ix4 b 6 i j)) := by
  simp only [k0_pay21, chan_read, mulf_apply, addf_apply, subf_apply, broadcast_apply, Ideal.ofBits_def]
  rfl

theorem size1K_at : k0_pay22 v3 v4 (ix3 b i j)
    = five * sq2 (Ideal.sqrt (v3 (ix4 b 2 i j))) (Ideal.sqrt (v4 (ix4 b 2 i j))) (Ideal.sqrt (v3 (ix4 b 3 i j)))
        (Ideal.sqrt (v4 (ix4 b 3 i j))) := by
  simp only [k0_pay22, chan_read, sqrt_read, mulf_apply, addf_apply, subf_apply, broadcast_apply, Ideal.ofBits_def]
  rfl

theorem size2K_at : k0_pay23 v3 v4 (ix3 b i j)
    = sq2 (Ideal.sqrt (v3 (ix4 b 7 i j))) (Ideal.sqrt (v4 (ix4 b 7 i j))) (Ideal.sqrt (v3 (ix4 b 8 i j)))
        (Ideal.sqrt (v4 (ix4 b 8 i j))) := by
  simp only [k0_pay23, chan_read, sqrt_read, mulf_apply, addf_apply, subf_apply, broadcast_apply, Ideal.ofBits_def]
  rfl

end At

end Cert.Loss.Kernel

end
-- ==== Proof.KernelStep.lean ====
/-
  What one grid point adds to the running total. The body's last store writes, into the one-entry accumulator,
  (old + main) + cls, where main is the sum over the block's 32 × 7 × 7 cells of the per-cell loss term — taken by the
  body as three nested one-axis sums with reshapes between — and cls is the sum over the block's 32 × 20 × 7 × 7 class
  entries of the squared differences, taken as four nested sums. A one-axis sum and a reshape both keep the total of
  the entries, so the nesting does not matter: each chain is the plain sum over all the block's entries.
-/
import proofs.«103485_j16303695855705_2_alg».proof.Proof.KernelCell
import proofs.«103485_j16303695855705_2_alg».proof.Proof.LibSums

noncomputable section

open scoped BigOperators

namespace Cert.Loss.Kernel

open Idealize.ShloMosaic Idealize.ShloMosaic.ValueIdx Cert.KernelIdeal Cert.KernelIdeal.Gen Cert.Loss Cert.Sums

/-- The one-entry accumulator's index set has one element. -/
instance : Subsingleton S1x1.Idx := subsingleton_idx_of_unit (s := S1x1) (fun a => by fin_cases a <;> rfl)

/-- Three nested one-axis sums of a [32,7,7] vector, with the reshapes the body puts between them, read at the
    accumulator's entry: the sum of all its entries. -/
theorem main_chain (X : FVec Ideal S32x7x7 .f32) (h1 : S32x7x7.Reduces [2] S32x7) (h2 : S32x7.Reduces [1] S32)
    (c1 : S32.ShapeCasts S32x1) (h3 : S32x1.Reduces [0] S1) (c2 : S1.ShapeCasts S1x1) (hφ : FKind.Formats .f32)
    (ha : (0x00000000#32 : BitVec 32) = 0x00000000#32) (idx : S1x1.Idx) :
    shapeCast S1x1 (multiReduction .add [0] S1 (shapeCast S32x1 (multiReduction .add [1] S32
      (multiReduction .add [2] S32x7 X 0x00000000#32 h1 hφ ha) 0x00000000#32 h2 hφ ha) c1) 0x00000000#32 h3 hφ ha) c2 idx
      = ∑ x, X x :=
  (eq_sum_of_unique _ idx).trans <| (sum_shapeCast _ c2).trans <| (sum_multiReduction_add _ _ h3 hφ ha).trans <|
    (sum_shapeCast _ c1).trans <| (sum_multiReduction_add _ _ h2 hφ ha).trans <| sum_multiReduction_add X _ h1 hφ ha

/-- Four nested one-axis sums of a [32,20,7,7] vector, with the body's reshapes between them, read at the
    accumulator's entry: the sum of all its entries. -/
theorem cls_chain (Y : FVec Ideal S32x20x7x7 .f32) (h1 : S32x20x7x7.Reduces [3] S32x20x7) (h2 : S32x20x7.Reduces [2] S32x20)
    (c1 : S32x20.ShapeCasts S32x20x1) (h3 : S32x20x1.Reduces [1] S32x1) (h4 : S32x1.Reduces [0] S1) (c2 : S1.ShapeCasts S1x1)
    (hφ : FKind.Formats .f32) (ha : (0x00000000#32 : BitVec 32) = 0x00000000#32) (idx : S1x1.Idx) :
    shapeCast S1x1 (multiReduction .add [0] S1 (multiReduction .add [1] S32x1 (shapeCast S32x20x1 (multiReduction .add [2] S32x20
      (multiReduction .add [3] S32x20x7 Y 0x00000000#32 h1 hφ ha) 0x00000000#32 h2 hφ ha) c1) 0x00000000#32 h3 hφ ha)
      0x00000000#32 h4 hφ ha) c2 idx
      = ∑ y, Y y :=
  (eq_sum_of_unique _ idx).trans <| (sum_shapeCast _ c2).trans <| (sum_multiReduction_add _ _ h4 hφ ha).trans <|
    (sum_multiReduction_add _ _ h3 hφ ha).trans <| (sum_shapeCast _ c1).trans <| (sum_multiReduction_add _ _ h2 hφ ha).trans <|
      sum_multiReduction_add Y _ h1 hφ ha

/-- The per-cell term from the intermediate values the body has at hand: the two masks, the two overlap ratios, the
    two boxes' coordinate and size terms (the second size term not yet scaled) and the two confidences. -/
def tail (obj resp : BitVec 1) (u1 u2 a1 s1 a2 s2 p4 p9 : EReal) : EReal :=
  Scalar.select obj
    (Scalar.select resp (a1 + s1) (a2 + five * s2)
      + half * ((p9 - Scalar.select resp u1 u2) * (p9 - Scalar.select resp u1 u2)))
    (half * ((p4 + p9) * (p4 + p9)))

/-- The body's last store, read at the accumulator's entry: the old entry, plus the sum over the block's cells of
    the per-cell term, plus the sum over the block's class entries of the squared differences. -/
theorem pay24_eq (v3 v4 : Vec Ideal S32x30x7x7 .f32) (v72 v136 : FVec Ideal S32x7x7 .f32) (v137 v141 : IVec S32x7x7 1)
    (v156 v171 v190 v207 : FVec Ideal S32x7x7 .f32) (v245 : Vec Ideal S1x1 .f32) (idx : S1x1.Idx) :
    k0_pay24 v3 v4 v72 v136 v137 v141 v156 v171 v190 v207 v245 idx
      = (v245 idx
          + ∑ b : Fin 32, ∑ i : Fin 7, ∑ j : Fin 7,
              tail (v141 (ix3 b i j)) (v137 (ix3 b i j)) (v72 (ix3 b i j)) (v136 (ix3 b i j)) (v156 (ix3 b i j)) (v190 (ix3 b i j))
                (v171 (ix3 b i j)) (v207 (ix3 b i j)) (v3 (ix4 b 4 i j)) (v3 (ix4 b 9 i j)))
        + ∑ b : Fin 32, ∑ ch : Fin 20, ∑ i : Fin 7, ∑ j : Fin 7,
            sqd (v3 (ix4 b ⟨10 + ch.val, by omega⟩ i j)) (v4 (ix4 b ⟨10 + ch.val, by omega⟩ i j)) := by
  unfold k0_pay24
  dsimp only
  rw [addf_apply, addf_apply, shapeCast_self]
  refine congrArg₂ (· + ·) (congrArg (v245 idx + ·) ((main_chain _ _ _ _ _ _ _ _ idx).trans ((sum_idx3 _).trans ?_)))
    ((cls_chain _ _ _ _ _ _ _ _ _ idx).trans ((sum_idx4 _).trans ?_))
  · refine Finset.sum_congr rfl fun b _ => Finset.sum_congr rfl fun i _ => Finset.sum_congr rfl fun j _ => ?_
    simp only [select_apply, chan_read, mulf_apply, addf_apply, subf_apply, broadcast_apply, Ideal.ofBits_def]
    rfl
  · refine Finset.sum_congr rfl fun b _ => Finset.sum_congr rfl fun ch _ => Finset.sum_congr rfl fun i _ =>
      Finset.sum_congr rfl fun j _ => ?_
    simp only [slice_read, mulf_apply, subf_apply]
    rfl

end Cert.Loss.Kernel

end
-- ==== Proof.KernelAcc.lean ====
/-
  The accumulator over the grid. Point t adds to the one-entry accumulator the sum of the per-cell terms of its block's
  32 × 7 × 7 cells and the sum of the squared class differences of its block's 32 × 20 × 7 × 7 class entries; the first
  point starts from the zero word, the last point divides by the batch size after adding. Block t of an array holds
  samples 32 t … 32 t + 31, so over all 1024 points every sample is added exactly once: the accumulator ends at the
  loss of the two whole arrays. On the extended reals addition is commutative and associative without any finiteness
  condition, so the order in which the entries are added does not matter.
-/
import proofs.«103485_j16303695855705_2_alg».proof.Proof.KernelPieces
import proofs.«103485_j16303695855705_2_alg».proof.Proof.KernelStep
import proofs.«103485_j16303695855705_2_alg».proof.Proof.Total

noncomputable section

open scoped BigOperators

namespace Cert.Loss.Kernel

open Idealize.ShloMosaic Idealize.ShloMosaic.TcCoe Idealize.ShloMosaic.ValueIdx Idealize.SL.Sem
open Cert.KernelIdeal Cert.KernelIdeal.Gen Cert.Loss Cert.Loss.Pieces Cert.Sums

/-! ## One block's two sums -/

/-- The sum of the per-cell terms over one block's cells. -/
def mainSum (y0 y1 : Vec Ideal S32x30x7x7 .f32) : EReal :=
  ∑ b : Fin 32, ∑ i : Fin 7, ∑ j : Fin 7, cell (fun ch => y0 (ix4 b ch i j)) (fun ch => y1 (ix4 b ch i j))

/-- The sum of the squared class differences over one block's class entries. -/
def clsSum (y0 y1 : Vec Ideal S32x30x7x7 .f32) : EReal :=
  ∑ b : Fin 32, ∑ ch : Fin 20, ∑ i : Fin 7, ∑ j : Fin 7,
    sqd (y0 (ix4 b ⟨10 + ch.val, by omega⟩ i j)) (y1 (ix4 b ⟨10 + ch.val, by omega⟩ i j))

/-- The stored value in terms of the named intermediate vectors. -/
theorem stored_eq (y0 y1 : Vec Ideal S32x30x7x7 .f32) (acc : Vec Ideal S1x1 .f32) :
    stored y0 y1 acc = k0_pay24 y0 y1 (iou1K y0 y1) (iou2K y0 y1) (respK y0 y1) (k0_pay16 y1) (addr1K y0 y1) (k0_pay21 y0 y1)
      (k0_pay22 y0 y1) (k0_pay23 y0 y1) acc := rfl

/-- The body's main store leaves (old + the block's main sum) + the block's class sum. -/
theorem stored_at (y0 y1 : Vec Ideal S32x30x7x7 .f32) (acc : Vec Ideal S1x1 .f32) (idx : S1x1.Idx) :
    stored y0 y1 acc idx = (acc idx + mainSum y0 y1) + clsSum y0 y1 := by
  rw [stored_eq, pay24_eq]
  refine congrArg₂ (· + ·) (congrArg (acc idx + ·) ?_) rfl
  refine Finset.sum_congr rfl fun b _ => Finset.sum_congr rfl fun i _ => Finset.sum_congr rfl fun j _ => ?_
  rw [obj_at, respK_at, iou1K_at, iou2K_at, addr1K_at, size1K_at, addr2K_at, size2K_at]
  rfl

/-- The cleared entry is the zero word. -/
theorem cleared_at (idx : S1x1.Idx) : (k0_pay2 (F := Ideal)) idx = zero := rfl

/-- The last point's second store divides the entry by the batch size. -/
theorem divided_at (v : Vec Ideal S1x1 .f32) (idx : S1x1.Idx) : k0_pay1 (F := Ideal) v idx = Ideal.div (v idx) batch := by
  unfold k0_pay1
  simp only [divf_apply, shapeCast_self, broadcast_apply, Ideal.ofBits_def]

/-! ## The running total -/

variable (m : (ℓ : Loc nD τ sig) → Buf (Elt Ideal) ℓ)

/-- The accumulator's entry after the additions of points 0 … n, before any division. -/
def running (c : Dev nD) : (n : ℕ) → n < cfg0.N → EReal
  | 0, h => (zero + mainSum (iblk m c 0 ⟨0, h⟩) (iblk m c 1 ⟨0, h⟩)) + clsSum (iblk m c 0 ⟨0, h⟩) (iblk m c 1 ⟨0, h⟩)
  | n + 1, h => (running c n (Nat.lt_of_succ_lt h) + mainSum (iblk m c 0 ⟨n + 1, h⟩) (iblk m c 1 ⟨n + 1, h⟩))
      + clsSum (iblk m c 0 ⟨n + 1, h⟩) (iblk m c 1 ⟨n + 1, h⟩)

/-- What the accumulator holds after point n: the running total, divided by the batch size at the last point. -/
theorem outsAt_eq (c : Dev nD) : ∀ (n : ℕ) (h : n < cfg0.N) (idx : S1x1.Idx),
    outsAt0 m c n h idx = if n = 1023 then Ideal.div (running m c n h) batch else running m c n h
  | 0, h, idx => by
    rw [if_neg (by omega)]
    have e := outsAt0_A m c ⟨0, h⟩ rfl (by dsimp only; omega)
    refine (congrFun e idx).trans ?_
    rw [out_A]
    exact (stored_at (iblk m c 0 ⟨0, h⟩) (iblk m c 1 ⟨0, h⟩) _ idx)
  | n + 1, h, idx => by
    have hN : cfg0.N = 1024 := N_0
    have h0 : ¬(⟨n + 1, h⟩ : Fin cfg0.N).val % 1024 = 0 := by dsimp only; omega
    have ih := outsAt_eq c n (Nat.lt_of_succ_lt h) idx
    rw [if_neg (by omega)] at ih
    by_cases h1 : n + 1 = 1023
    · rw [if_pos h1]
      have e := outsAt0_C m c ⟨n + 1, h⟩ h0 (by dsimp only; omega)
      refine (congrFun e idx).trans ?_
      rw [out_C, divided_at]
      refine congrArg (Ideal.div · batch) ?_
      refine (stored_at (iblk m c 0 ⟨n + 1, h⟩) (iblk m c 1 ⟨n + 1, h⟩) _ idx).trans ?_
      show (outsAt0 m c n _ idx + _) + _ = _
      rw [ih]
      rfl
    · rw [if_neg h1]
      have e := outsAt0_B m c ⟨n + 1, h⟩ h0 (by dsimp only; omega)
      refine (congrFun e idx).trans ?_
      rw [out_B]
      refine (stored_at (iblk m c 0 ⟨n + 1, h⟩) (iblk m c 1 ⟨n + 1, h⟩) _ idx).trans ?_
      show (outsAt0 m c n _ idx + _) + _ = _
      rw [ih]
      rfl

/-! ## The running total is the sum over the points -/

/-- Point t's contribution (zero past the grid). -/
def contrib (c : Dev nD) (t : ℕ) : EReal :=
  if h : t < cfg0.N then mainSum (iblk m c 0 ⟨t, h⟩) (iblk m c 1 ⟨t, h⟩) + clsSum (iblk m c 0 ⟨t, h⟩) (iblk m c 1 ⟨t, h⟩) else 0

theorem running_eq (c : Dev nD) : ∀ (n : ℕ) (h : n < cfg0.N), running m c n h = ∑ t ∈ Finset.range (n + 1), contrib m c t
  | 0, h => by
    rw [Finset.sum_range_one]
    unfold running contrib
    rw [dif_pos h, show zero = (0 : EReal) from Ideal.ofBits_zero_f32, zero_add]
  | n + 1, h => by
    rw [Finset.sum_range_succ, ← running_eq c n (Nat.lt_of_succ_lt h)]
    conv_lhs => unfold running
    unfold contrib
    rw [dif_pos h, add_assoc]

/-! ## A block read at an entry is the array read at the block's place -/

/-- The index maps of the two input windows: block t starts at sample 32 t and at channel, row and column 0. -/
theorem idx_facts0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx_facts1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

theorem iblk0_read (c : Dev nD) (t : Fin cfg0.N) (r : Fin 32) (ch : Fin 30) (i j : Fin 7) (k : Fin 32768)
    (hk : k.val = r.val + 32 * t.val) :
    iblk m c 0 t (ix4 r ch i j) = V m c main_arg0 (ix4 k ch i j) := by
  have hi := idx_facts0 t
  unfold iblk
  rw [View.read_apply]
  show V m c main_arg0 _ = V m c main_arg0 _
  refine congrArg (V m c main_arg0) (funext fun a => Fin.ext ?_)
  match a with
  | ⟨0, _⟩ => show win0_0.index t 0 * 32 + 1 * r.val = k.val; rw [hi.1, hk]; omega
  | ⟨1, _⟩ => show win0_0.index t 1 * 30 + 1 * ch.val = ch.val; rw [hi.2.1]; omega
  | ⟨2, _⟩ => show win0_0.index t 2 * 7 + 1 * i.val = i.val; rw [hi.2.2.1]; omega
  | ⟨3, _⟩ => show win0_0.index t 3 * 7 + 1 * j.val = j.val; rw [hi.2.2.2]; omega

theorem iblk1_read (c : Dev nD) (t : Fin cfg0.N) (r : Fin 32) (ch : Fin 30) (i j : Fin 7) (k : Fin 32768)
    (hk : k.val = r.val + 32 * t.val) :
    iblk m c 1 t (ix4 r ch i j) = V m c main_arg1 (ix4 k ch i j) := by
  have hi := idx_facts1 t
  unfold iblk
  rw [View.read_apply]
  show V m c main_arg1 _ = V m c main_arg1 _
  refine congrArg (V m c main_arg1) (funext fun a => Fin.ext ?_)
  match a with
  | ⟨0, _⟩ => show win0_1.index t 0 * 32 + 1 * r.val = k.val; rw [hi.1, hk]; omega
  | ⟨1, _⟩ => show win0_1.index t 1 * 30 + 1 * ch.val = ch.val; rw [hi.2.1]; omega
  | ⟨2, _⟩ => show win0_1.index t 2 * 7 + 1 * i.val = i.val; rw [hi.2.2.1]; omega
  | ⟨3, _⟩ => show win0_1.index t 3 * 7 + 1 * j.val = j.val; rw [hi.2.2.2]; omega

/-! ## All the points together: the loss of the whole arrays -/

/-- The sum of the 1024 contributions is the main total plus the class total of the two whole arrays. -/
theorem contrib_sum (c : Dev nD) :
    ∑ t ∈ Finset.range 1024, contrib m c t = mainTotal (V m c main_arg0) (V m c main_arg1) + clsTotal (V m c main_arg0) (V m c main_arg1) := by
  have hN : cfg0.N = 1024 := N_0
  rw [Finset.sum_range (contrib m c)]
  unfold mainTotal clsTotal
  rw [sum_fin_stretches 1024 32, sum_fin_stretches 1024 32, ← Finset.sum_add_distrib]
  refine Finset.sum_congr rfl fun q _ => ?_
  have hq : q.val < cfg0.N := by have := q.isLt; omega
  unfold contrib
  rw [dif_pos hq]
  unfold mainSum clsSum
  refine congrArg₂ (· + ·) ?_ ?_
  · refine Finset.sum_congr rfl fun r _ => Finset.sum_congr rfl fun i _ => Finset.sum_congr rfl fun j _ => ?_
    refine congrArg₂ cell (funext fun ch => ?_) (funext fun ch => ?_)
    · exact iblk0_read m c ⟨q.val, hq⟩ r ch i j (finProdFinEquiv (q, r)) rfl
    · exact iblk1_read m c ⟨q.val, hq⟩ r ch i j (finProdFinEquiv (q, r)) rfl
  · refine Finset.sum_congr rfl fun r _ => Finset.sum_congr rfl fun ch _ => Finset.sum_congr rfl fun i _ =>
      Finset.sum_congr rfl fun j _ => ?_
    refine congrArg₂ sqd ?_ ?_
    · exact iblk0_read m c ⟨q.val, hq⟩ r _ i j (finProdFinEquiv (q, r)) rfl
    · exact iblk1_read m c ⟨q.val, hq⟩ r _ i j (finProdFinEquiv (q, r)) rfl

/-- After the last point the accumulator's entry is the loss of the two whole arrays. -/
theorem last_eq (c : Dev nD) (h : 1023 < cfg0.N) (idx : S1x1.Idx) :
    outsAt0 m c 1023 h idx = loss (V m c main_arg0) (V m c main_arg1) := by
  rw [outsAt_eq, if_pos rfl, running_eq, contrib_sum]
  rfl

end Cert.Loss.Kernel

end
-- ==== Proof.KernelRun.lean ====
/-
  The kernel's run with its result named. The accumulator's one block is written back once, after the last grid point,
  where it holds the loss of the two whole arrays; that one block is the whole [1,1] result array. The host then drops
  the two unit axes, which keeps the one entry.
-/
import proofs.«103485_j16303695855705_2_alg».proof.Proof.KernelAcc
import Idealize.ShloMosaic.Lib.StableHlo.Run

noncomputable section

namespace Cert.Loss.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Loss Cert.Loss.Pieces

variable (m : (ℓ : Loc nD τ sig) → Buf (Elt Ideal) ℓ) (ρ : Dev nD → PrngReg)

/-- The [1,1] result array's final contents: the loss at its one entry. -/
abbrev outArr (c : Dev nD) : Buf (Elt Ideal) ((c : Thread nD τ).loc main_v0) :=
  fun _ => loss (V m c main_arg0) (V m c main_arg1)

theorem lastLt : 1023 < cfg0.N := by rw [show cfg0.N = 1024 from N_0]; decide

/-- After the last point the accumulator holds the result array's final contents. -/
theorem outs_last (c : Dev nD) : outsAt0 m c 1023 lastLt = outArr m c := funext fun idx => last_eq m c lastLt idx

/-- The one write-back, after the last point, writes the result array's final contents: block (0, 0) of the [1,1]
    array read through zero offsets is the array. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 1024 := N_0
  have h3 : t.val = 1023 := by have := (flush0_2 t).mp hf; have := t.isLt; omega
  obtain rfl : t = ⟨1023, lastLt⟩ := Fin.ext h3
  show (cfg0.win 2).cut (grid0.coords ⟨1023, lastLt⟩) ((dats m 0 c).after 2 ⟨1023, lastLt⟩) = _
  rw [after0_2]
  show (cfg0.win 2).cut (grid0.coords ⟨1023, lastLt⟩) (outsAt0 m c 1023 lastLt) = _
  rw [outs_last]
  have hz' : (fun a => win0_2.index ⟨1023, lastLt⟩ a * main_v0.ty.shape.size a) = fun _ => 0 :=
    funext fun a => by fin_cases a <;> decide +kernel
  exact (Memref.read_access_unit_zero (Elt Ideal) main_v0 hz' (fun a => by rw [congrFun hz' a]; simp) (outArr m c)).symm

/-- So the result array ends holding the loss at its one entry: the last point's block covers it. -/
theorem final_o (c : Dev nD) : (dats m 0 c).arrAt 2 cfg0.N = outArr m c :=
  (dats m 0 c).arrAt_eq_of_cover 2 (outArr m c) (flushed_eq m c) fun i =>
    ⟨⟨1023, lastLt⟩, (flush0_2 ⟨1023, lastLt⟩).mpr rfl, by
      show i ∈ ((View.whole main_v0).slice (win0_2.rect ⟨1023, lastLt⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index ⟨1023, lastLt⟩ 0 * win0_2.size 0 ≤ (i 0 : Nat) ∧ (i 0 : Nat) < win0_2.index ⟨1023, lastLt⟩ 0 * win0_2.size 0 + win0_2.xsize (grid0.coords ⟨1023, lastLt⟩) 0
                  rw [show win0_2.index ⟨1023, lastLt⟩ 0 * win0_2.size 0 = 0 from by decide +kernel, show win0_2.xsize (grid0.coords ⟨1023, lastLt⟩) 0 = 1 from by decide +kernel]; omega
      | ⟨1, _⟩ => show win0_2.index ⟨1023, lastLt⟩ 1 * win0_2.size 1 ≤ (i 1 : Nat) ∧ (i 1 : Nat) < win0_2.index ⟨1023, lastLt⟩ 1 * win0_2.size 1 + win0_2.xsize (grid0.coords ⟨1023, lastLt⟩) 1
                  rw [show win0_2.index ⟨1023, lastLt⟩ 1 * win0_2.size 1 = 0 from by decide +kernel, show win0_2.xsize (grid0.coords ⟨1023, lastLt⟩) 1 = 1 from by decide +kernel]; omega⟩

/-- The scalar result: the host's reshape of the [1,1] array keeps its one entry. -/
abbrev result (c : Dev nD) : Buf (Elt Ideal) ((c : Thread nD τ).loc main_v1) :=
  fun _ => loss (V m c main_arg0) (V m c main_arg1)

/-- What the line after the region leaves in the scalar result buffer. -/
theorem tail_eq (c : Dev nD) : Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = outArr m c := (Pipeline.withArrays_arr spec0 launch0.win.arr_inj c _ _ 2).trans (final_o m c)
  rw [e]
  rfl

/-- The kernel's run, read: the scalar result at the loss of the two argument arrays, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Loss.Kernel

end
-- ==== Proof.lean ====
/-
  The detection loss computed tile by tile against the whole-array reference. The kernel walks the batch in 1024 blocks
  of 32 samples; at each block it adds to a one-entry accumulator the sum of the per-cell terms over the block's cells and
  the sum of the squared class differences over the block's class entries, and after the last block divides by the batch
  size 32768. The reference sums the per-cell terms over all cells, the squared class differences over all class entries,
  adds the two totals and divides by 32768. Both use the same per-cell arithmetic, operation for operation, on the same
  words; at the ideal instance floats are extended reals, where addition is commutative and associative with no finiteness
  condition, so the two groupings of the same finite family of summands agree: both results are the one function
  (main total + class total) / 32768 of the two argument arrays. The precondition (finite inputs) is never opened.
-/
import proofs.«103485_j16303695855705_2_alg».proof.Defs
import proofs.«103485_j16303695855705_2_alg».proof.Proof.Gen.Kernel
import proofs.«103485_j16303695855705_2_alg».proof.Proof.Gen.Kernel.Skeleton
import proofs.«103485_j16303695855705_2_alg».proof.Proof.Gen.Kernel.Launch
import proofs.«103485_j16303695855705_2_alg».proof.Proof.Gen.Kernel.Points
import proofs.«103485_j16303695855705_2_alg».proof.Proof.Gen.Kernel.Frame
import proofs.«103485_j16303695855705_2_alg».proof.Proof.Gen.KernelIdeal
import proofs.«103485_j16303695855705_2_alg».proof.Proof.Gen.KernelIdeal.Skeleton
import proofs.«103485_j16303695855705_2_alg».proof.Proof.Gen.KernelIdeal.Launch
import proofs.«103485_j16303695855705_2_alg».proof.Proof.Gen.KernelIdeal.Points
import proofs.«103485_j16303695855705_2_alg».proof.Proof.Gen.KernelIdeal.Frame
import proofs.«103485_j16303695855705_2_alg».proof.Proof.Gen.ReferenceIdeal
import proofs.«103485_j16303695855705_2_alg».proof.Proof.Gen.Pre_finite_inputs
import proofs.«103485_j16303695855705_2_alg».proof.Proof.RefRun
import proofs.«103485_j16303695855705_2_alg».proof.Proof.RefRead
import proofs.«103485_j16303695855705_2_alg».proof.Proof.RefReadRun
import proofs.«103485_j16303695855705_2_alg».proof.Proof.RefTotal
import proofs.«103485_j16303695855705_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- Both idealized programs end with the loss of the two argument arrays in their scalar result. -/
theorem algebraic : Cert.algebraic_KernelIdeal_ReferenceIdeal := by
  intro m ρ m' ρ' _ hagree
  refine ⟨fun c => Cert.Loss.Kernel.result m c, Cert.Loss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v232_eq, (hagree c).1, (hagree c).2]
  funext i
  exact Cert.Loss.Ref.result_eq _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
